-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩

abbrev nBuf : Space → Nat
  | .hbm => 60
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S128x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x1, .f32⟩
  | .local _ .vmem, ⟨22, _⟩ => ⟨S4000x1, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v38_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc2_stg10_0 : Ref sig .tc := ⟨.vmem, 32, rfl⟩
abbrev cc2_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc2_sem9_0 : DmaSem sig := 30
abbrev cc2_sem9_1 : DmaSem sig := 31
abbrev cc2_sem10_0 : DmaSem sig := 32
abbrev cc2_sem10_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S4000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S100000x128.size a
  hwx2_8 : ∀ i : grid2.Coords, EltTy.bits .f32 = 32 ∨ (Rect.block (s := S100000x128) S4000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x128.size a ≤ S100000x128.size a
  hwx2_10 : ∀ i : grid2.Coords, EltTy.bits .f32 = 32 ∨ (Rect.block (s := S100000x128) S4000x128.size (cc2_transform_10 i) (hinb2_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v37) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v38_0) S4000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v38_1) S4000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v38_2) S4000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call1_cst : Ref sig .tc := ⟨.hbm, 119, rfl⟩
abbrev main_call1_v0 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_call2_cst : Ref sig .tc := ⟨.hbm, 126, rfl⟩
abbrev main_call2_v0 : Ref sig .tc := ⟨.hbm, 127, rfl⟩
abbrev main_v95 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The kernel program's run, with every buffer named at the end.

  @main is six segments: a host stretch and a kernel region, three times. Run from any memory with zero counters,
  every weakly fair execution terminates without a fault, and each core's unscoped buffers end at the contents the
  last boundary holds: the launch contents carried through the three stretches and the three regions' write-backs.
  The results and the arguments are then read off that one statement.
-/
import proofs.«164251_j86242943303861_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- A result buffer of @main is among the unscoped buffers. -/
theorem res_mem (b : Ref sig .tc) (h : ¬ (Proc.devRef .tc b : DevRef τ sig).isScoped) :
    Proc.devRef .tc b ∈ Pipeline.ucRefs τ sig := mem_uc b h

end Cert.KernelIdeal.Whole

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«164251_j86242943303861_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibGcnDense.lean ====
/-
  The dense steps of a two-layer graph convolution, on whole arrays.

  Nodes are the rows of an M × C array. A layer first multiplies the node features by a weight matrix and scales
  row v of the product by the node's weight d v (`scaled`); the neighbourhood sums are taken elsewhere; the layer
  is finished by adding the node's own scaled row to its neighbourhood sum, scaling row v by d v once more and
  adding a bias row (`finish`). The first layer is followed by a maximum with zero (`relu`), the second by two
  linear heads, each a product, a bias row and a maximum with zero (`head`).

  Each of these is computed by a kernel on T rows at a time. Because row v of every result depends on row v of the
  row-wise operands only, the result computed from the tiles at row offset r0 is the tile at r0 of the result
  computed from the whole arrays: one lemma per step, by composing the row-tile lemmas.
-/
import proofs.«164251_j86242943303861_2_alg».proof.Proof.LibTileMore

noncomputable section

namespace Cert.Gcn

open Idealize.ShloMosaic Idealize.ShloMosaic.ValueIdx Cert.Tile

/-- An M × C array of extended reals. -/
abbrev Arr2 (M C : Nat) : Type := (⟨2, ![M, C]⟩ : Shape).Idx → EReal

/-- X · W: entry (v, j) is the sum over k of X (v, k) · W (k, j). -/
def mm {M K N : Nat} (X : Arr2 M K) (W : Arr2 K N) : Arr2 M N := Ideal.matmul (DotDims.plain M K N) X W (fun _ => 0)

/-- An M × 1 column repeated across C columns. -/
def colB {M : Nat} (C : Nat) (d : Arr2 M 1) : Arr2 M C := broadcastInDim ⟨2, ![M, C]⟩ ![0, 1] (bidCol M C) d

/-- A 1 × C row repeated down M rows. -/
def rowB (M : Nat) {C : Nat} (r : Arr2 1 C) : Arr2 M C := broadcastInDim ⟨2, ![M, C]⟩ ![0, 1] (bidRow M C) r

/-- Zero everywhere. -/
def zeroB (M C : Nat) : Arr2 M C :=
  broadcastInDim ⟨2, ![M, C]⟩ ![] (bidScalar M C) (constant (F := Ideal) ⟨0, ![]⟩ .f32 0x00000000#32)

/-- (X · W) with row v scaled by d v. -/
def scaled {M K N : Nat} (X : Arr2 M K) (W : Arr2 K N) (d : Arr2 M 1) : Arr2 M N := fun i => mm X W i * colB N d i

/-- d v · (A (v, j) + S (v, j)) + b j. -/
def finish {M C : Nat} (d : Arr2 M 1) (A S : Arr2 M C) (b : Arr2 1 C) : Arr2 M C :=
  fun i => colB C d i * (A i + S i) + rowB M b i

/-- The larger of each entry and zero. -/
def relu {M C : Nat} (X : Arr2 M C) : Arr2 M C := fun i => max (X i) (zeroB M C i)

/-- A linear head: the larger of (H · W + b) and zero. -/
def head {M K N : Nat} (H : Arr2 M K) (W : Arr2 K N) (b : Arr2 1 N) : Arr2 M N := relu fun i => mm H W i + rowB M b i

variable {T M : Nat} {r0 : Nat} {hr : r0 + T ≤ M}

/-- The kernel's row-scaled product of a tile is the tile of the whole arrays' row-scaled product. -/
theorem tile_scaled {K N : Nat} {x : Arr2 T K} {X : Arr2 M K} {dt : Arr2 T 1} {D : Arr2 M 1}
    (dd : DotDims ⟨2, ![T, K]⟩ ⟨2, ![K, N]⟩ ⟨2, ![T, N]⟩) (hdd : dd = DotDims.plain T K N) (W : Arr2 K N)
    (hb1 : (FTy.bf16).bits < (FTy.f32).bits)
    (hc : (⟨2, ![T, 1]⟩ : Shape).ShapeCasts ⟨2, ![T, 1]⟩) (h2 : (⟨2, ![T, 1]⟩ : Shape).Broadcasts ⟨2, ![T, N]⟩)
    (hx : IsTile r0 hr x X) (hd : IsTile r0 hr dt D) :
    IsTile r0 hr
      (mulf (F := Ideal) (φ := .f32)
        (Idealize.ShloMosaic.matmul (F := Ideal) (φ₁ := .bf16) (φ₂ := .bf16) dd none
          (truncf (F := Ideal) (φ := .f32) .bf16 x hb1) (truncf (F := Ideal) (φ := .f32) .bf16 W hb1)
          (constant ⟨2, ![T, N]⟩ .f32 0x00000000#32))
        (broadcastTo ⟨2, ![T, N]⟩ (shapeCast ⟨2, ![T, 1]⟩ dt hc) h2))
      (scaled X W D) :=
  vMul (vMatmul dd hdd none W (vTrunc .bf16 hb1 hx)) (colRep h2 (bidCol M N) (castSelf hc hd))

/-- The kernel's finish of a layer on tiles is the tile of the whole arrays' finish. -/
theorem tile_finish {C : Nat} {dt : Arr2 T 1} {D : Arr2 M 1} {a s : Arr2 T C} {A S : Arr2 M C} (b : Arr2 1 C)
    (hc : (⟨2, ![T, 1]⟩ : Shape).ShapeCasts ⟨2, ![T, 1]⟩) (h2 : (⟨2, ![T, 1]⟩ : Shape).Broadcasts ⟨2, ![T, C]⟩)
    (hcc : (⟨2, ![T, C]⟩ : Shape).ShapeCasts ⟨2, ![T, C]⟩)
    (hcb : (⟨2, ![1, C]⟩ : Shape).ShapeCasts ⟨2, ![1, C]⟩) (hb2 : (⟨2, ![1, C]⟩ : Shape).Broadcasts ⟨2, ![T, C]⟩)
    (hd : IsTile r0 hr dt D) (ha : IsTile r0 hr a A) (hs : IsTile r0 hr s S) :
    IsTile r0 hr
      (addf (F := Ideal) (φ := .f32)
        (mulf (F := Ideal) (φ := .f32) (broadcastTo ⟨2, ![T, C]⟩ (shapeCast ⟨2, ![T, 1]⟩ dt hc) h2)
          (addf (F := Ideal) (φ := .f32) (shapeCast ⟨2, ![T, C]⟩ a hcc) (shapeCast ⟨2, ![T, C]⟩ s hcc)))
        (broadcastTo ⟨2, ![T, C]⟩ (shapeCast ⟨2, ![1, C]⟩ b hcb) hb2))
      (finish D A S b) := by
  rw [shapeCast_self b hcb]
  exact vAdd (vMul (colRep h2 (bidCol M C) (castSelf hc hd)) (vAdd (castSelf hcc ha) (castSelf hcc hs)))
    (rowRep b hb2 (bidRow M C))

/-- The kernel's maximum with a zero splat on a tile is the tile of the whole array's. -/
theorem tile_relu {C : Nat} {x : Arr2 T C} {X : Arr2 M C} (hx : IsTile r0 hr x X) :
    IsTile r0 hr
      (maximumf (F := Ideal) (φ := .f32) x (broadcast ⟨2, ![T, C]⟩ (Scalar.ofBits (F := Ideal) .f32 0x00000000#32)))
      (relu X) :=
  vMax hx (vSplat 0x00000000#32 (bidScalar M C))

/-- The kernel's product of a tile with a weight matrix plus a bias row is the tile of the whole arrays'. -/
theorem tile_affine {K N : Nat} {x : Arr2 T K} {X : Arr2 M K}
    (dd : DotDims ⟨2, ![T, K]⟩ ⟨2, ![K, N]⟩ ⟨2, ![T, N]⟩) (hdd : dd = DotDims.plain T K N) (W : Arr2 K N) (b : Arr2 1 N)
    (hb1 : (FTy.bf16).bits < (FTy.f32).bits)
    (hcb : (⟨2, ![1, N]⟩ : Shape).ShapeCasts ⟨2, ![1, N]⟩) (hb2 : (⟨2, ![1, N]⟩ : Shape).Broadcasts ⟨2, ![T, N]⟩)
    (hx : IsTile r0 hr x X) :
    IsTile r0 hr
      (addf (F := Ideal) (φ := .f32)
        (Idealize.ShloMosaic.matmul (F := Ideal) (φ₁ := .bf16) (φ₂ := .bf16) dd none
          (truncf (F := Ideal) (φ := .f32) .bf16 x hb1) (truncf (F := Ideal) (φ := .f32) .bf16 W hb1)
          (constant ⟨2, ![T, N]⟩ .f32 0x00000000#32))
        (broadcastTo ⟨2, ![T, N]⟩ (shapeCast ⟨2, ![1, N]⟩ b hcb) hb2))
      (fun i => mm X W i + rowB M b i) := by
  rw [shapeCast_self b hcb]
  exact vAdd (vMatmul dd hdd none W (vTrunc .bf16 hb1 hx)) (rowRep b hb2 (bidRow M N))

end Cert.Gcn

end
-- ==== Proof.Region0.lean ====
/-
  The first kernel region on whole arrays: its output array ends holding the row-scaled product of its inputs.

  The region walks 25 grid points; point t works on rows [4000 t, 4000 t + 4000) of the feature array and of the
  weight column, and on the whole weight matrix. What point t writes back is therefore rows [4000 t, 4000 t + 4000)
  of `scaled X W d`, and since the 25 row ranges fill the 100000 rows, the output array after the region is
  `scaled X W d` of the arrays the region found.
-/
import proofs.«164251_j86242943303861_2_alg».proof.Proof.Gen.KernelIdeal.Frame
import proofs.«164251_j86242943303861_2_alg».proof.Proof.LibGcnDense
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Tile Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Over the grid: a row-tiled window's block index is (t, 0), the weight matrix's is (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt25 (t : Fin cfg0.N) : t.val < 25 := lt_of_lt_of_eq t.isLt N_0

theorem rows_le (t : Fin cfg0.N) : 4000 * t.val + 4000 ≤ 100000 := by have := lt25 t; omega

/-- The body's arithmetic on a tile of rows is the tile of the whole arrays' row-scaled product. -/
theorem pay_tile {r0 : Nat} {hr : r0 + 4000 ≤ 100000} (x0 : Vec Ideal S4000x128 .f32) (w : Vec Ideal S128x128 .f32)
    (x2 : Vec Ideal S4000x1 .f32) (X : Arr2 100000 128) (D : Arr2 100000 1)
    (hx : IsTile (T := 4000) (M := 100000) (C := 128) r0 hr x0 X)
    (hd : IsTile (T := 4000) (M := 100000) (C := 1) r0 hr x2 D) :
    IsTile (T := 4000) (M := 100000) (C := 128) r0 hr (k0_pay1 (F := Ideal) x0 w x2) (scaled X w D) := by
  unfold k0_pay1
  exact tile_scaled _ rfl w _ _ _ hx hd

/-- The feature window's block at point t is rows [4000 t, 4000 t + 4000) of its array. -/
theorem blk_0 (c : Dev nD) (t : Fin cfg0.N) :
    IsTile (T := 4000) (M := 100000) (C := 128) (4000 * t.val) (rows_le t) (iblk0 V c 0 t) (V c main_arg0) := by
  intro p l
  obtain ⟨e0, e1, -⟩ := idx t
  show V c main_arg0 (((cfg0.win 0).blk t).view.emb (ix2 p l)) = V c main_arg0 (ix2 ⟨4000 * t.val + p.val, _⟩ l)
  refine congrArg _ (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * l.val = l.val; omega

/-- The weight matrix's block at every point is the whole matrix. -/
theorem blk_1 (c : Dev nD) (t : Fin cfg0.N) : iblk0 V c 1 t = V c main_arg2 := by
  obtain ⟨-, -, e0, e1, -⟩ := idx t
  funext j
  show V c main_arg2 (((cfg0.win 1).blk t).view.emb j) = V c main_arg2 j
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The weight column's block at point t is rows [4000 t, 4000 t + 4000) of the column. -/
theorem blk_2 (c : Dev nD) (t : Fin cfg0.N) :
    IsTile (T := 4000) (M := 100000) (C := 1) (4000 * t.val) (rows_le t) (iblk0 V c 2 t) (V c main_v11) := by
  intro p l
  obtain ⟨-, -, -, -, e0, e1, -⟩ := idx t
  show V c main_v11 (((cfg0.win 2).blk t).view.emb (ix2 p l)) = V c main_v11 (ix2 ⟨4000 * t.val + p.val, _⟩ l)
  refine congrArg _ (funext fun a => Fin.ext ?_)
  match a with
  | ⟨0, _⟩ => show win0_2.index t (0 : Fin 2) * 4000 + 1 * p.val = 4000 * t.val + p.val; omega
  | ⟨1, _⟩ => show win0_2.index t (1 : Fin 2) * 1 + 1 * l.val = l.val; omega

/-- What point t writes back is block t of the whole arrays' row-scaled product. -/
theorem flushed (c : Dev nD) (t : Fin cfg0.N) :
    (dat0 V c).flushed 3 t
      = ((cfg0.win 3).blk t).view.read (Elt Ideal) (scaled (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  rw [blk_1]
  obtain ⟨-, -, -, -, -, -, e0, e1⟩ := idx t
  funext j
  obtain ⟨p, l, rfl⟩ : ∃ (p : Fin 4000) (l : Fin 128), j = ix2 p l := ⟨j 0, j 1, eq_ix2 j⟩
  refine (pay_tile (iblk0 V c 0 t) (V c main_arg2) (iblk0 V c 2 t) (V c main_arg0) (V c main_v11)
    (blk_0 V c t) (blk_2 V c t) p l).trans ?_
  show scaled (V c main_arg0) (V c main_arg2) (V c main_v11) (ix2 ⟨4000 * t.val + p.val, _⟩ l)
    = scaled (V c main_arg0) (V c main_arg2) (V c main_v11) (((cfg0.win 3).blk t).view.emb (ix2 p l))
  refine congrArg _ (funext fun a => Fin.ext ?_)
  match a with
  | ⟨0, _⟩ => show 4000 * t.val + p.val = win0_3.index t (0 : Fin 2) * 4000 + 1 * p.val; omega
  | ⟨1, _⟩ => show l.val = win0_3.index t (1 : Fin 2) * 128 + 1 * l.val; omega

/-- An index of the output array is in point t's block iff each coordinate is in the block's range. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v12).slice (win0_3.rect t)).set ↔ _
  rw [View.set_slice_whole, Rect.mem_set_unit]
  exact Iff.rfl

/-- Row r of the output array is written by point r / 4000. -/
theorem cover (i : S100000x128.Idx) :
    ∃ t : Fin cfg0.N, (cfg0.win 3).flush t = true ∧ i ∈ ((cfg0.win 3).blk t).view.set := by
  have h0 : (i 0).val < 100000 := (i 0).isLt
  have h1 : (i 1).val < 128 := (i 1).isLt
  have ht : (i 0).val / 4000 < cfg0.N := by rw [show cfg0.N = 25 from N_0]; omega
  obtain ⟨-, -, -, -, -, -, e0, e1⟩ := idx ⟨(i 0).val / 4000, ht⟩
  refine ⟨⟨(i 0).val / 4000, ht⟩, flush0_3 _, ?_⟩
  rw [mem_blk]
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val
      ∧ (i 1).val < win0_3.index ⟨(i 0).val / 4000, ht⟩ (1 : Fin 2) * 128 + 128
    rw [e1]; omega

/-- The output array after the region: the row-scaled product of the arrays the region found. -/
theorem final (c : Dev nD) :
    (dat0 V c).arrAt 3 cfg0.N = scaled (V c main_arg0) (V c main_arg2) (V c main_v11) :=
  (dat0 V c).arrAt_eq_of_cover 3 _ (fun t _ => flushed V c t) cover

end Cert.KernelIdeal.Region0

end
-- ==== Proof.Region1.lean ====
/-
  The second kernel region on whole arrays. Point t takes rows [4000 t, 4000 t + 4000) of the first layer's
  neighbourhood sums, of its scaled features and of the weight column, and the whole bias row and weight matrix;
  it finishes the first layer on those rows, takes the maximum with zero, and forms the second layer's row-scaled
  product. So what it writes back is those rows of `scaled (relu (finish d A S b)) W d`, and the 25 row ranges
  fill the output array.
-/
import proofs.«164251_j86242943303861_2_alg».proof.Proof.Gen.KernelIdeal.Frame
import proofs.«164251_j86242943303861_2_alg».proof.Proof.LibGcnDense
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Tile Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lt25 (t : Fin cfg1.N) : t.val < 25 := lt_of_lt_of_eq t.isLt N_1

theorem rows_le (t : Fin cfg1.N) : 4000 * t.val + 4000 ≤ 100000 := by have := lt25 t; omega

/-! Over the grid: a row-tiled window's block index is (t, 0), a whole window's is (0, 0). -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = t.val ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)

/-- The body's arithmetic on tiles of rows is the tile of the whole arrays' finished, rectified and re-scaled layer. -/
theorem pay_tile {r0 : Nat} {hr : r0 + 4000 ≤ 100000} (dt : Vec Ideal S4000x1 .f32) (a s : Vec Ideal S4000x128 .f32)
    (b : Vec Ideal S1x128 .f32) (w : Vec Ideal S128x128 .f32) (D : Arr2 100000 1) (A S : Arr2 100000 128)
    (hd : IsTile (T := 4000) (M := 100000) (C := 1) r0 hr dt D)
    (ha : IsTile (T := 4000) (M := 100000) (C := 128) r0 hr a A)
    (hs : IsTile (T := 4000) (M := 100000) (C := 128) r0 hr s S) :
    IsTile (T := 4000) (M := 100000) (C := 128) r0 hr (k1_pay1 (F := Ideal) dt a s b w dt)
      (scaled (relu (finish D A S b)) w D) := by
  unfold k1_pay1
  exact tile_scaled _ rfl w _ _ _ (tile_relu (tile_finish b _ _ _ _ _ hd ha hs)) hd

/-- Window 0's block at point t is rows [4000 t, 4000 t + 4000) of its array. -/
theorem blk_0 (c : Dev nD) (t : Fin cfg1.N) :
    IsTile (T := 4000) (M := 100000) (C := 128) (4000 * t.val) (rows_le t) (iblk1 V c 0 t) (V c main_v22) := by
  intro p l
  obtain ⟨e0, e1⟩ := idx_0 t
  show V c main_v22 (((cfg1.win 0).blk t).view.emb (ix2 p l)) = V c main_v22 (ix2 ⟨4000 * t.val + p.val, _⟩ l)
  refine congrArg _ (funext fun a => Fin.ext ?_)
  match a with
  | ⟨0, _⟩ => show win1_0.index t (0 : Fin 2) * 4000 + 1 * p.val = 4000 * t.val + p.val; omega
  | ⟨1, _⟩ => show win1_0.index t (1 : Fin 2) * 128 + 1 * l.val = l.val; omega

/-- Window 1's block at point t is rows [4000 t, 4000 t + 4000) of its array. -/
theorem blk_1 (c : Dev nD) (t : Fin cfg1.N) :
    IsTile (T := 4000) (M := 100000) (C := 128) (4000 * t.val) (rows_le t) (iblk1 V c 1 t) (V c main_v12) := by
  intro p l
  obtain ⟨e0, e1⟩ := idx_1 t
  show V c main_v12 (((cfg1.win 1).blk t).view.emb (ix2 p l)) = V c main_v12 (ix2 ⟨4000 * t.val + p.val, _⟩ l)
  refine congrArg _ (funext fun a => Fin.ext ?_)
  match a with
  | ⟨0, _⟩ => show win1_1.index t (0 : Fin 2) * 4000 + 1 * p.val = 4000 * t.val + p.val; omega
  | ⟨1, _⟩ => show win1_1.index t (1 : Fin 2) * 128 + 1 * l.val = l.val; omega

/-- Window 2's block at point t is rows [4000 t, 4000 t + 4000) of its array. -/
theorem blk_2 (c : Dev nD) (t : Fin cfg1.N) :
    IsTile (T := 4000) (M := 100000) (C := 1) (4000 * t.val) (rows_le t) (iblk1 V c 2 t) (V c main_v11) := by
  intro p l
  obtain ⟨e0, e1⟩ := idx_2 t
  show V c main_v11 (((cfg1.win 2).blk t).view.emb (ix2 p l)) = V c main_v11 (ix2 ⟨4000 * t.val + p.val, _⟩ l)
  refine congrArg _ (funext fun a => Fin.ext ?_)
  match a with
  | ⟨0, _⟩ => show win1_2.index t (0 : Fin 2) * 4000 + 1 * p.val = 4000 * t.val + p.val; omega
  | ⟨1, _⟩ => show win1_2.index t (1 : Fin 2) * 1 + 1 * l.val = l.val; omega

/-- Window 3's block at every point is its whole array. -/
theorem blk_3 (c : Dev nD) (t : Fin cfg1.N) : iblk1 V c 3 t = V c main_v23 := by
  obtain ⟨e0, e1⟩ := idx_3 t
  funext j
  show V c main_v23 (((cfg1.win 3).blk t).view.emb j) = V c main_v23 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega

/-- Window 4's block at every point is its whole array. -/
theorem blk_4 (c : Dev nD) (t : Fin cfg1.N) : iblk1 V c 4 t = V c main_arg4 := by
  obtain ⟨e0, e1⟩ := idx_4 t
  funext j
  show V c main_arg4 (((cfg1.win 4).blk t).view.emb j) = V c main_arg4 j
  refine congrArg _ (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- What point t writes back to window 5 is block t of the finished, rectified and re-scaled layer. -/
theorem flushed_5 (c : Dev nD) (t : Fin cfg1.N) :
    (dat1 V c).flushed 5 t = ((cfg1.win 5).blk t).view.read (Elt Ideal) (scaled (relu (finish (V c main_v11) (V c main_v22) (V c main_v12) (V c main_v23))) (V c main_arg4) (V c main_v11)) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz,
    View.ld_unit_zero (S := S4000x1) hz, View.ld_unit_zero (S := S1x128) hz]
  rw [blk_3, blk_4]
  obtain ⟨e0, e1⟩ := idx_5 t
  funext j
  obtain ⟨p, l, rfl⟩ : ∃ (p : Fin 4000) (l : Fin 128), j = ix2 p l := ⟨j 0, j 1, eq_ix2 j⟩
  refine (pay_tile (iblk1 V c 2 t) (iblk1 V c 0 t) (iblk1 V c 1 t) (V c main_v23) (V c main_arg4) (V c main_v11) (V c main_v22) (V c main_v12) (blk_2 V c t) (blk_0 V c t) (blk_1 V c t) p l).trans ?_
  show (scaled (relu (finish (V c main_v11) (V c main_v22) (V c main_v12) (V c main_v23))) (V c main_arg4) (V c main_v11)) (ix2 ⟨4000 * t.val + p.val, _⟩ l) = (scaled (relu (finish (V c main_v11) (V c main_v22) (V c main_v12) (V c main_v23))) (V c main_arg4) (V c main_v11)) (((cfg1.win 5).blk t).view.emb (ix2 p l))
  refine congrArg _ (funext fun a => Fin.ext ?_)
  match a with
  | ⟨0, _⟩ => show 4000 * t.val + p.val = win1_5.index t (0 : Fin 2) * 4000 + 1 * p.val; omega
  | ⟨1, _⟩ => show l.val = win1_5.index t (1 : Fin 2) * 128 + 1 * l.val; omega

/-- An index of window 5's array is in point t's block iff each coordinate is in the block's range. -/
theorem mem_blk_5 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v24).slice (win1_5.rect t)).set ↔ _
  rw [View.set_slice_whole, Rect.mem_set_unit]
  exact Iff.rfl

/-- Row r of window 5's array is written by point r / 4000. -/
theorem cover_5 (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have ht : (i 0).val / 4000 < cfg1.N := by rw [show cfg1.N = 25 from N_1]; omega
  obtain ⟨e0, e1⟩ := idx_5 ⟨(i 0).val / 4000, ht⟩
  refine ⟨⟨(i 0).val / 4000, ht⟩, flush1_5 _, ?_⟩
  rw [mem_blk_5]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    rw [e1]; omega

/-- Window 5's array after the region: the finished, rectified and re-scaled layer of the arrays the region found. -/
theorem final_5 (c : Dev nD) : (dat1 V c).arrAt 5 cfg1.N = scaled (relu (finish (V c main_v11) (V c main_v22) (V c main_v12) (V c main_v23))) (V c main_arg4) (V c main_v11) :=
  (dat1 V c).arrAt_eq_of_cover 5 _ (fun t _ => flushed_5 V c t) cover_5

end Cert.KernelIdeal.Region1

end
-- ==== Proof.Region2.lean ====
/-
  The third kernel region on whole arrays. Point t takes rows [4000 t, 4000 t + 4000) of the second layer's
  neighbourhood sums, of its scaled features and of the weight column, and the whole of three bias rows and two
  weight matrices; it finishes the second layer on those rows (the first output) and applies the two linear heads
  to the finished rows (the second and third outputs). So what it writes back to each output is those rows of
  `finish d A S b`, of `head (finish d A S b) Wv bv` and of `head (finish d A S b) Wt bt`, and the 25 row
  ranges fill each output array.
-/
import proofs.«164251_j86242943303861_2_alg».proof.Proof.Gen.KernelIdeal.Frame
import proofs.«164251_j86242943303861_2_alg».proof.Proof.LibGcnDense
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Cert.Tile Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lt25 (t : Fin cfg2.N) : t.val < 25 := lt_of_lt_of_eq t.isLt N_2

theorem rows_le (t : Fin cfg2.N) : 4000 * t.val + 4000 ≤ 100000 := by have := lt25 t; omega

/-! Over the grid: a row-tiled window's block index is (t, 0), a whole window's is (0, 0). -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = 0 ∧ win2_7.index t (1 : Fin 2) = 0 :=
  (by decide +kernel : ∀ t : Fin grid2.N, _)
theorem idx_8 : ∀ t : Fin cfg2.N, win2_8.index t (0 : Fin 2) = t.val ∧ win2_8.index t (1 : Fin 2) = 0 :=
  (by decide +kernel : ∀ t : Fin grid2.N, _)
theorem idx_9 : ∀ t : Fin cfg2.N, win2_9.index t (0 : Fin 2) = t.val ∧ win2_9.index t (1 : Fin 2) = 0 :=
  (by decide +kernel : ∀ t : Fin grid2.N, _)
theorem idx_10 : ∀ t : Fin cfg2.N, win2_10.index t (0 : Fin 2) = t.val ∧ win2_10.index t (1 : Fin 2) = 0 :=
  (by decide +kernel : ∀ t : Fin grid2.N, _)

/-- The finish of the layer on tiles of rows is the tile of the whole arrays' finish. -/
theorem pay_h {r0 : Nat} {hr : r0 + 4000 ≤ 100000} (dt : Vec Ideal S4000x1 .f32) (a s : Vec Ideal S4000x128 .f32)
    (b : Vec Ideal S1x128 .f32) (D : Arr2 100000 1) (A S : Arr2 100000 128)
    (hd : IsTile (T := 4000) (M := 100000) (C := 1) r0 hr dt D)
    (ha : IsTile (T := 4000) (M := 100000) (C := 128) r0 hr a A)
    (hs : IsTile (T := 4000) (M := 100000) (C := 128) r0 hr s S) :
    IsTile (T := 4000) (M := 100000) (C := 128) r0 hr (k2_pay2 (F := Ideal) dt a s b) (finish D A S b) := by
  unfold k2_pay2
  exact tile_finish b _ _ _ _ _ hd ha hs

/-- The first head on tiles of rows is the tile of the whole arrays' head. -/
theorem pay_v {r0 : Nat} {hr : r0 + 4000 ≤ 100000} (dt : Vec Ideal S4000x1 .f32) (a s : Vec Ideal S4000x128 .f32)
    (b : Vec Ideal S1x128 .f32) (w : Vec Ideal S128x128 .f32) (bh : Vec Ideal S1x128 .f32) (D : Arr2 100000 1) (A S : Arr2 100000 128)
    (hd : IsTile (T := 4000) (M := 100000) (C := 1) r0 hr dt D)
    (ha : IsTile (T := 4000) (M := 100000) (C := 128) r0 hr a A)
    (hs : IsTile (T := 4000) (M := 100000) (C := 128) r0 hr s S) :
    IsTile (T := 4000) (M := 100000) (C := 128) r0 hr (k2_pay4 (F := Ideal) dt a s b w bh)
      (head (finish D A S b) w bh) := by
  unfold k2_pay4 k2_pay3
  exact tile_relu (tile_affine _ rfl w bh _ _ _ (pay_h dt a s b D A S hd ha hs))

/-- The second head on tiles of rows is the tile of the whole arrays' head. -/
theorem pay_t {r0 : Nat} {hr : r0 + 4000 ≤ 100000} (dt : Vec Ideal S4000x1 .f32) (a s : Vec Ideal S4000x128 .f32)
    (b : Vec Ideal S1x128 .f32) (w : Vec Ideal S128x128 .f32) (bh : Vec Ideal S1x128 .f32) (D : Arr2 100000 1) (A S : Arr2 100000 128)
    (hd : IsTile (T := 4000) (M := 100000) (C := 1) r0 hr dt D)
    (ha : IsTile (T := 4000) (M := 100000) (C := 128) r0 hr a A)
    (hs : IsTile (T := 4000) (M := 100000) (C := 128) r0 hr s S) :
    IsTile (T := 4000) (M := 100000) (C := 128) r0 hr
      (k2_pay1 (F := Ideal) (k2_pay5 (F := Ideal) dt a s b w bh) (k2_pay6 (F := Ideal)))
      (head (finish D A S b) w bh) := by
  unfold k2_pay1 k2_pay5 k2_pay6 k2_pay3
  exact tile_relu (tile_affine _ rfl w bh _ _ _ (pay_h dt a s b D A S hd ha hs))

/-- Window 0's block at point t is rows [4000 t, 4000 t + 4000) of its array. -/
theorem blk_0 (c : Dev nD) (t : Fin cfg2.N) :
    IsTile (T := 4000) (M := 100000) (C := 128) (4000 * t.val) (rows_le t) (iblk2 V c 0 t) (V c main_v34) := by
  intro p l
  obtain ⟨e0, e1⟩ := idx_0 t
  show V c main_v34 (((cfg2.win 0).blk t).view.emb (ix2 p l)) = V c main_v34 (ix2 ⟨4000 * t.val + p.val, _⟩ l)
  refine congrArg _ (funext fun a => Fin.ext ?_)
  match a with
  | ⟨0, _⟩ => show win2_0.index t (0 : Fin 2) * 4000 + 1 * p.val = 4000 * t.val + p.val; omega
  | ⟨1, _⟩ => show win2_0.index t (1 : Fin 2) * 128 + 1 * l.val = l.val; omega

/-- Window 1's block at point t is rows [4000 t, 4000 t + 4000) of its array. -/
theorem blk_1 (c : Dev nD) (t : Fin cfg2.N) :
    IsTile (T := 4000) (M := 100000) (C := 128) (4000 * t.val) (rows_le t) (iblk2 V c 1 t) (V c main_v24) := by
  intro p l
  obtain ⟨e0, e1⟩ := idx_1 t
  show V c main_v24 (((cfg2.win 1).blk t).view.emb (ix2 p l)) = V c main_v24 (ix2 ⟨4000 * t.val + p.val, _⟩ l)
  refine congrArg _ (funext fun a => Fin.ext ?_)
  match a with
  | ⟨0, _⟩ => show win2_1.index t (0 : Fin 2) * 4000 + 1 * p.val = 4000 * t.val + p.val; omega
  | ⟨1, _⟩ => show win2_1.index t (1 : Fin 2) * 128 + 1 * l.val = l.val; omega

/-- Window 2's block at point t is rows [4000 t, 4000 t + 4000) of its array. -/
theorem blk_2 (c : Dev nD) (t : Fin cfg2.N) :
    IsTile (T := 4000) (M := 100000) (C := 1) (4000 * t.val) (rows_le t) (iblk2 V c 2 t) (V c main_v11) := by
  intro p l
  obtain ⟨e0, e1⟩ := idx_2 t
  show V c main_v11 (((cfg2.win 2).blk t).view.emb (ix2 p l)) = V c main_v11 (ix2 ⟨4000 * t.val + p.val, _⟩ l)
  refine congrArg _ (funext fun a => Fin.ext ?_)
  match a with
  | ⟨0, _⟩ => show win2_2.index t (0 : Fin 2) * 4000 + 1 * p.val = 4000 * t.val + p.val; omega
  | ⟨1, _⟩ => show win2_2.index t (1 : Fin 2) * 1 + 1 * l.val = l.val; omega

/-- Window 3's block at every point is its whole array. -/
theorem blk_3 (c : Dev nD) (t : Fin cfg2.N) : iblk2 V c 3 t = V c main_v35 := by
  obtain ⟨e0, e1⟩ := idx_3 t
  funext j
  show V c main_v35 (((cfg2.win 3).blk t).view.emb j) = V c main_v35 j
  refine congrArg _ (funext fun a => Fin.ext ?_)
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- Window 4's block at every point is its whole array. -/
theorem blk_4 (c : Dev nD) (t : Fin cfg2.N) : iblk2 V c 4 t = V c main_arg6 := by
  obtain ⟨e0, e1⟩ := idx_4 t
  funext j
  show V c main_arg6 (((cfg2.win 4).blk t).view.emb j) = V c main_arg6 j
  refine congrArg _ (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- Window 5's block at every point is its whole array. -/
theorem blk_5 (c : Dev nD) (t : Fin cfg2.N) : iblk2 V c 5 t = V c main_v36 := by
  obtain ⟨e0, e1⟩ := idx_5 t
  funext j
  show V c main_v36 (((cfg2.win 5).blk t).view.emb j) = V c main_v36 j
  refine congrArg _ (funext fun a => Fin.ext ?_)
  match a with
  | ⟨0, _⟩ => show win2_5.index t (0 : Fin 2) * 1 + 1 * (j 0).val = (j 0).val; omega
  | ⟨1, _⟩ => show win2_5.index t (1 : Fin 2) * 128 + 1 * (j 1).val = (j 1).val; omega

/-- Window 6's block at every point is its whole array. -/
theorem blk_6 (c : Dev nD) (t : Fin cfg2.N) : iblk2 V c 6 t = V c main_arg8 := by
  obtain ⟨e0, e1⟩ := idx_6 t
  funext j
  show V c main_arg8 (((cfg2.win 6).blk t).view.emb j) = V c main_arg8 j
  refine congrArg _ (funext fun a => Fin.ext ?_)
  match a with
  | ⟨0, _⟩ => show win2_6.index t (0 : Fin 2) * 128 + 1 * (j 0).val = (j 0).val; omega
  | ⟨1, _⟩ => show win2_6.index t (1 : Fin 2) * 128 + 1 * (j 1).val = (j 1).val; omega

/-- Window 7's block at every point is its whole array. -/
theorem blk_7 (c : Dev nD) (t : Fin cfg2.N) : iblk2 V c 7 t = V c main_v37 := by
  obtain ⟨e0, e1⟩ := idx_7 t
  funext j
  show V c main_v37 (((cfg2.win 7).blk t).view.emb j) = V c main_v37 j
  refine congrArg _ (funext fun a => Fin.ext ?_)
  match a with
  | ⟨0, _⟩ => show win2_7.index t (0 : Fin 2) * 1 + 1 * (j 0).val = (j 0).val; omega
  | ⟨1, _⟩ => show win2_7.index t (1 : Fin 2) * 128 + 1 * (j 1).val = (j 1).val; omega

/-- What point t writes back to window 8 is block t of the finished layer. -/
theorem flushed_8 (c : Dev nD) (t : Fin cfg2.N) :
    (dat2 V c).flushed 8 t = ((cfg2.win 8).blk t).view.read (Elt Ideal) (finish (V c main_v11) (V c main_v34) (V c main_v24) (V c main_v35)) := by
  show (cfg2.win 8).cut (grid2.coords t) ((dat2 V c).after 8 t) = _
  rw [after2_8]
  unfold out2_8
  rw [View.canon_unit_zero hz]
  simp only [View.ld_unit_zero (S := S4000x128) hz, View.ld_unit_zero (S := S128x128) hz,
    View.ld_unit_zero (S := S4000x1) hz, View.ld_unit_zero (S := S1x128) hz]
  rw [blk_3]
  obtain ⟨e0, e1⟩ := idx_8 t
  funext j
  obtain ⟨p, l, rfl⟩ : ∃ (p : Fin 4000) (l : Fin 128), j = ix2 p l := ⟨j 0, j 1, eq_ix2 j⟩
  refine (pay_h (iblk2 V c 2 t) (iblk2 V c 0 t) (iblk2 V c 1 t) (V c main_v35) (V c main_v11) (V c main_v34) (V c main_v24) (blk_2 V c t) (blk_0 V c t) (blk_1 V c t) p l).trans ?_
  show (finish (V c main_v11) (V c main_v34) (V c main_v24) (V c main_v35)) (ix2 ⟨4000 * t.val + p.val, _⟩ l) = (finish (V c main_v11) (V c main_v34) (V c main_v24) (V c main_v35)) (((cfg2.win 8).blk t).view.emb (ix2 p l))
  refine congrArg _ (funext fun a => Fin.ext ?_)
  match a with
  | ⟨0, _⟩ => show 4000 * t.val + p.val = win2_8.index t (0 : Fin 2) * 4000 + 1 * p.val; omega
  | ⟨1, _⟩ => show l.val = win2_8.index t (1 : Fin 2) * 128 + 1 * l.val; omega

/-- An index of window 8's array is in point t's block iff each coordinate is in the block's range. -/
theorem mem_blk_8 (t : Fin cfg2.N) (i : S100000x128.Idx) :
    i ∈ ((cfg2.win 8).blk t).view.set ↔ ∀ a : Fin 2, win2_8.index t a * S4000x128.size a ≤ (i a).val
      ∧ (i a).val < win2_8.index t a * S4000x128.size a + S4000x128.size a := by
  show i ∈ ((View.whole main_v38_0).slice (win2_8.rect t)).set ↔ _
  rw [View.set_slice_whole, Rect.mem_set_unit]
  exact Iff.rfl

/-- Row r of window 8's array is written by point r / 4000. -/
theorem cover_8 (i : S100000x128.Idx) :
    ∃ t : Fin cfg2.N, (cfg2.win 8).flush t = true ∧ i ∈ ((cfg2.win 8).blk t).view.set := by
  have h0 : (i 0).val < 100000 := (i 0).isLt
  have h1 : (i 1).val < 128 := (i 1).isLt
  have ht : (i 0).val / 4000 < cfg2.N := by rw [show cfg2.N = 25 from N_2]; omega
  obtain ⟨e0, e1⟩ := idx_8 ⟨(i 0).val / 4000, ht⟩
  refine ⟨⟨(i 0).val / 4000, ht⟩, flush2_8 _, ?_⟩
  rw [mem_blk_8]
  intro a
  match a with
  | ⟨0, _⟩ =>
    show win2_8.index ⟨(i 0).val / 4000, ht⟩ (0 : Fin 2) * 4000 ≤ (i 0).val
      ∧ (i 0).val < win2_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_8.index ⟨(i 0).val / 4000, ht⟩ (1 : Fin 2) * 128 ≤ (i 1).val
      ∧ (i 1).val < win2_8.index ⟨(i 0).val / 4000, ht⟩ (1 : Fin 2) * 128 + 128
    rw [e1]; omega

/-- Window 8's array after the region: the finished layer of the arrays the region found. -/
theorem final_8 (c : Dev nD) : (dat2 V c).arrAt 8 cfg2.N = finish (V c main_v11) (V c main_v34) (V c main_v24) (V c main_v35) :=
  (dat2 V c).arrAt_eq_of_cover 8 _ (fun t _ => flushed_8 V c t) cover_8

/-- What point t writes back to window 9 is block t of the first head of the finished layer. -/
theorem flushed_9 (c : Dev nD) (t : Fin cfg2.N) :
    (dat2 V c).flushed 9 t = ((cfg2.win 9).blk t).view.read (Elt Ideal) (head (finish (V c main_v11) (V c main_v34) (V c main_v24) (V c main_v35)) (V c main_arg6) (V c main_v36)) := by
  show (cfg2.win 9).cut (grid2.coords t) ((dat2 V c).after 9 t) = _
  rw [after2_9]
  unfold out2_9
  rw [View.canon_unit_zero hz]
  simp only [View.ld_unit_zero (S := S4000x128) hz, View.ld_unit_zero (S := S128x128) hz,
    View.ld_unit_zero (S := S4000x1) hz, View.ld_unit_zero (S := S1x128) hz]
  rw [blk_3, blk_4, blk_5]
  obtain ⟨e0, e1⟩ := idx_9 t
  funext j
  obtain ⟨p, l, rfl⟩ : ∃ (p : Fin 4000) (l : Fin 128), j = ix2 p l := ⟨j 0, j 1, eq_ix2 j⟩
  refine (pay_v (iblk2 V c 2 t) (iblk2 V c 0 t) (iblk2 V c 1 t) (V c main_v35) (V c main_arg6) (V c main_v36) (V c main_v11) (V c main_v34) (V c main_v24) (blk_2 V c t) (blk_0 V c t) (blk_1 V c t) p l).trans ?_
  show (head (finish (V c main_v11) (V c main_v34) (V c main_v24) (V c main_v35)) (V c main_arg6) (V c main_v36)) (ix2 ⟨4000 * t.val + p.val, _⟩ l) = (head (finish (V c main_v11) (V c main_v34) (V c main_v24) (V c main_v35)) (V c main_arg6) (V c main_v36)) (((cfg2.win 9).blk t).view.emb (ix2 p l))
  refine congrArg _ (funext fun a => Fin.ext ?_)
  match a with
  | ⟨0, _⟩ => show 4000 * t.val + p.val = win2_9.index t (0 : Fin 2) * 4000 + 1 * p.val; omega
  | ⟨1, _⟩ => show l.val = win2_9.index t (1 : Fin 2) * 128 + 1 * l.val; omega

/-- An index of window 9's array is in point t's block iff each coordinate is in the block's range. -/
theorem mem_blk_9 (t : Fin cfg2.N) (i : S100000x128.Idx) :
    i ∈ ((cfg2.win 9).blk t).view.set ↔ ∀ a : Fin 2, win2_9.index t a * S4000x128.size a ≤ (i a).val
      ∧ (i a).val < win2_9.index t a * S4000x128.size a + S4000x128.size a := by
  show i ∈ ((View.whole main_v38_1).slice (win2_9.rect t)).set ↔ _
  rw [View.set_slice_whole, Rect.mem_set_unit]
  exact Iff.rfl

/-- Row r of window 9's array is written by point r / 4000. -/
theorem cover_9 (i : S100000x128.Idx) :
    ∃ t : Fin cfg2.N, (cfg2.win 9).flush t = true ∧ i ∈ ((cfg2.win 9).blk t).view.set := by
  have h0 : (i 0).val < 100000 := (i 0).isLt
  have h1 : (i 1).val < 128 := (i 1).isLt
  have ht : (i 0).val / 4000 < cfg2.N := by rw [show cfg2.N = 25 from N_2]; omega
  obtain ⟨e0, e1⟩ := idx_9 ⟨(i 0).val / 4000, ht⟩
  refine ⟨⟨(i 0).val / 4000, ht⟩, flush2_9 _, ?_⟩
  rw [mem_blk_9]
  intro a
  match a with
  | ⟨0, _⟩ =>
    show win2_9.index ⟨(i 0).val / 4000, ht⟩ (0 : Fin 2) * 4000 ≤ (i 0).val
      ∧ (i 0).val < win2_9.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_9.index ⟨(i 0).val / 4000, ht⟩ (1 : Fin 2) * 128 ≤ (i 1).val
      ∧ (i 1).val < win2_9.index ⟨(i 0).val / 4000, ht⟩ (1 : Fin 2) * 128 + 128
    rw [e1]; omega

/-- Window 9's array after the region: the first head of the finished layer of the arrays the region found. -/
theorem final_9 (c : Dev nD) : (dat2 V c).arrAt 9 cfg2.N = head (finish (V c main_v11) (V c main_v34) (V c main_v24) (V c main_v35)) (V c main_arg6) (V c main_v36) :=
  (dat2 V c).arrAt_eq_of_cover 9 _ (fun t _ => flushed_9 V c t) cover_9

/-- What point t writes back to window 10 is block t of the second head of the finished layer. -/
theorem flushed_10 (c : Dev nD) (t : Fin cfg2.N) :
    (dat2 V c).flushed 10 t = ((cfg2.win 10).blk t).view.read (Elt Ideal) (head (finish (V c main_v11) (V c main_v34) (V c main_v24) (V c main_v35)) (V c main_arg8) (V c main_v37)) := by
  show (cfg2.win 10).cut (grid2.coords t) ((dat2 V c).after 10 t) = _
  rw [after2_10]
  unfold out2_10
  rw [View.canon_unit_zero hz]
  simp only [View.ld_unit_zero (S := S4000x128) hz, View.ld_unit_zero (S := S128x128) hz,
    View.ld_unit_zero (S := S4000x1) hz, View.ld_unit_zero (S := S1x128) hz]
  rw [blk_3, blk_6, blk_7]
  obtain ⟨e0, e1⟩ := idx_10 t
  funext j
  obtain ⟨p, l, rfl⟩ : ∃ (p : Fin 4000) (l : Fin 128), j = ix2 p l := ⟨j 0, j 1, eq_ix2 j⟩
  refine (pay_t (iblk2 V c 2 t) (iblk2 V c 0 t) (iblk2 V c 1 t) (V c main_v35) (V c main_arg8) (V c main_v37) (V c main_v11) (V c main_v34) (V c main_v24) (blk_2 V c t) (blk_0 V c t) (blk_1 V c t) p l).trans ?_
  show (head (finish (V c main_v11) (V c main_v34) (V c main_v24) (V c main_v35)) (V c main_arg8) (V c main_v37)) (ix2 ⟨4000 * t.val + p.val, _⟩ l) = (head (finish (V c main_v11) (V c main_v34) (V c main_v24) (V c main_v35)) (V c main_arg8) (V c main_v37)) (((cfg2.win 10).blk t).view.emb (ix2 p l))
  refine congrArg _ (funext fun a => Fin.ext ?_)
  match a with
  | ⟨0, _⟩ => show 4000 * t.val + p.val = win2_10.index t (0 : Fin 2) * 4000 + 1 * p.val; omega
  | ⟨1, _⟩ => show l.val = win2_10.index t (1 : Fin 2) * 128 + 1 * l.val; omega

/-- An index of window 10's array is in point t's block iff each coordinate is in the block's range. -/
theorem mem_blk_10 (t : Fin cfg2.N) (i : S100000x128.Idx) :
    i ∈ ((cfg2.win 10).blk t).view.set ↔ ∀ a : Fin 2, win2_10.index t a * S4000x128.size a ≤ (i a).val
      ∧ (i a).val < win2_10.index t a * S4000x128.size a + S4000x128.size a := by
  show i ∈ ((View.whole main_v38_2).slice (win2_10.rect t)).set ↔ _
  rw [View.set_slice_whole, Rect.mem_set_unit]
  exact Iff.rfl

/-- Row r of window 10's array is written by point r / 4000. -/
theorem cover_10 (i : S100000x128.Idx) :
    ∃ t : Fin cfg2.N, (cfg2.win 10).flush t = true ∧ i ∈ ((cfg2.win 10).blk t).view.set := by
  have h0 : (i 0).val < 100000 := (i 0).isLt
  have h1 : (i 1).val < 128 := (i 1).isLt
  have ht : (i 0).val / 4000 < cfg2.N := by rw [show cfg2.N = 25 from N_2]; omega
  obtain ⟨e0, e1⟩ := idx_10 ⟨(i 0).val / 4000, ht⟩
  refine ⟨⟨(i 0).val / 4000, ht⟩, flush2_10 _, ?_⟩
  rw [mem_blk_10]
  intro a
  match a with
  | ⟨0, _⟩ =>
    show win2_10.index ⟨(i 0).val / 4000, ht⟩ (0 : Fin 2) * 4000 ≤ (i 0).val
      ∧ (i 0).val < win2_10.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_10.index ⟨(i 0).val / 4000, ht⟩ (1 : Fin 2) * 128 ≤ (i 1).val
      ∧ (i 1).val < win2_10.index ⟨(i 0).val / 4000, ht⟩ (1 : Fin 2) * 128 + 128
    rw [e1]; omega

/-- Window 10's array after the region: the second head of the finished layer of the arrays the region found. -/
theorem final_10 (c : Dev nD) : (dat2 V c).arrAt 10 cfg2.N = head (finish (V c main_v11) (V c main_v34) (V c main_v24) (V c main_v35)) (V c main_arg8) (V c main_v37) :=
  (dat2 V c).arrAt_eq_of_cover 10 _ (fun t _ => flushed_10 V c t) cover_10

end Cert.KernelIdeal.Region2

end
-- ==== Proof.Through.lean ====
/-
  The kernel program's buffers from launch to its results.

  @main is three host stretches, each followed by a kernel region. The first stretch splits the edge list into source
  and target indices and computes the node weights, kept as a column; the first region forms the first layer's
  row-scaled product; the second stretch gathers its rows at the (wrapped) source indices and adds them up at the
  target indices, and views the first bias as a row; the second region finishes layer one and forms layer two's
  row-scaled product; the third stretch takes the same neighbourhood sums of that and views three biases as rows;
  the third region finishes layer two and applies both heads. Reading each buffer at each boundary — what a stretch
  computes where it writes, the same contents where nothing writes, a region's output array at its whole-array
  function and its input arrays unchanged — gives the three results as functions of the launch arrays.
-/
import proofs.«164251_j86242943303861_2_alg».proof.Proof.Gen.KernelIdeal.Frame
import proofs.«164251_j86242943303861_2_alg».proof.Proof.Region0
import proofs.«164251_j86242943303861_2_alg».proof.Proof.Region1
import proofs.«164251_j86242943303861_2_alg».proof.Proof.Region2
import Idealize.ShloMosaic.Lib.StableHlo.Run
import Idealize.ShloMosaic.Lib.Pipeline.Value
import Idealize.ShloMosaic.Lib.ValueIdx

set_option maxRecDepth 16384

noncomputable section

namespace Cert.KernelIdeal.Through

open Cert.KernelIdeal Cert.KernelIdeal.Gen Idealize.ShloMosaic Idealize.ShloMosaic.TcCoe Idealize.ShloMosaic.ValueIdx
open Idealize.SL.Sem Cert.Tile Cert.Gcn Idealize.ShloMosaic.StableHlo
open Idealize.ShloMosaic.Pipeline (Dat)

/-! ## The host stretches' values, named -/

/-- The edges' source indices: row 0 of the edge list. -/
def srcK (ei : IVec S2x1600000 32) : IVec S1600000 32 :=
  shapeCast S1600000 (extractStridedSlice S1x1600000 ![0, 0] ei slices_S2x1600000_S1x1600000_0_0) shapeCasts_S1x1600000_S1600000

/-- The edges' target indices: row 1 of the edge list. -/
def dstK (ei : IVec S2x1600000 32) : IVec S1600000 32 :=
  shapeCast S1600000 (extractStridedSlice S1x1600000 ![1, 0] ei slices_S2x1600000_S1x1600000_1_0) shapeCasts_S1x1600000_S1600000

/-- A negative index counted from the end. -/
def wrapK (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- An index list as a one-column index array. -/
def colK (v : IVec S1600000 32) : IVec S1600000x1 32 := broadcastInDim S1600000x1 ![0] bcast_S1600000_S1600000x1_0 v

/-- The node weights: rsqrt of (number of edges landing on the node, plus one). -/
def disK (ei : IVec S2x1600000 32) : FVec Ideal S100000 .f32 :=
  Host.rsqrt (addf (Host.scatterAdd scatter_S100000_S1600000x1_S1600000_n_0_0_1
      (broadcastInDim S100000 ![] bcast_S_S100000 (constant S_ .f32 0x00000000#32)) (colK (dstK ei))
      (broadcastInDim S1600000 ![] bcast_S_S1600000 (constant S_ .f32 0x3F800000#32)))
    (broadcastInDim S100000 ![] bcast_S_S100000 (constant S_ .f32 0x3F800000#32)))

/-- The node weights as a column. -/
def dis2K (ei : IVec S2x1600000 32) : FVec Ideal S100000x1 .f32 := shapeCast S100000x1 (disK ei) shapeCasts_S100000_S100000x1

/-- A bias as a row. -/
def rowK (b : FVec Ideal S128 .f32) : FVec Ideal S1x128 .f32 := shapeCast S1x128 b shapeCasts_S128_S1x128

/-- Rows gathered at the wrapped source indices, added up at the target indices. -/
def aggOf (dst src : IVec S1600000 32) (X : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (colK dst)
    (Host.gather gather_S100000x128_S1600000x1_S1600000x128_1_0_n_n_0_1_1128 X (colK (wrapK src)))

/-- The neighbourhood sums over the edge list. -/
def aggK (ei : IVec S2x1600000 32) (X : FVec Ideal S100000x128 .f32) : FVec Ideal S100000x128 .f32 :=
  aggOf (dstK ei) (srcK ei) X

/-- The first layer's row-scaled product. -/
def xws1 (x : FVec Ideal S100000x128 .f32) (ei : IVec S2x1600000 32) (w1 : FVec Ideal S128x128 .f32) : FVec Ideal S100000x128 .f32 :=
  scaled x w1 (dis2K ei)

/-- The second layer's row-scaled product, of the first layer finished and rectified. -/
def xws2 (x : FVec Ideal S100000x128 .f32) (ei : IVec S2x1600000 32) (w1 : FVec Ideal S128x128 .f32) (b1 : FVec Ideal S128 .f32)
    (w2 : FVec Ideal S128x128 .f32) : FVec Ideal S100000x128 .f32 :=
  scaled (relu (finish (dis2K ei) (aggK ei (xws1 x ei w1)) (xws1 x ei w1) (rowK b1))) w2 (dis2K ei)

/-- The second layer finished: the first result. -/
def hid (x : FVec Ideal S100000x128 .f32) (ei : IVec S2x1600000 32) (w1 : FVec Ideal S128x128 .f32) (b1 : FVec Ideal S128 .f32)
    (w2 : FVec Ideal S128x128 .f32) (b2 : FVec Ideal S128 .f32) : FVec Ideal S100000x128 .f32 :=
  finish (dis2K ei) (aggK ei (xws2 x ei w1 b1 w2)) (xws2 x ei w1 b1 w2) (rowK b2)

/-! ## What each host stretch computes, from any starting contents -/

section Stretches
variable (W : Valuation τ sig (Elt Ideal))

theorem ops0_v1 : StableHlo.after hostOps0 W (Proc.devRef .tc main_v1) = srcK (W (Proc.devRef .tc main_arg1)) := by
  after_results
  rfl

theorem ops0_v3 : StableHlo.after hostOps0 W (Proc.devRef .tc main_v3) = dstK (W (Proc.devRef .tc main_arg1)) := by
  after_results
  rfl

theorem ops0_v11 : StableHlo.after hostOps0 W (Proc.devRef .tc main_v11) = dis2K (W (Proc.devRef .tc main_arg1)) := by
  after_results
  rfl

theorem ops1_v22 : StableHlo.after hostOps1 W (Proc.devRef .tc main_v22)
    = aggOf (W (Proc.devRef .tc main_v3)) (W (Proc.devRef .tc main_v1)) (W (Proc.devRef .tc main_v12)) := by
  after_results
  rfl

theorem ops1_v23 : StableHlo.after hostOps1 W (Proc.devRef .tc main_v23) = rowK (W (Proc.devRef .tc main_arg3)) := by
  after_results
  rfl

theorem ops2_v34 : StableHlo.after hostOps2 W (Proc.devRef .tc main_v34)
    = aggOf (W (Proc.devRef .tc main_v3)) (W (Proc.devRef .tc main_v1)) (W (Proc.devRef .tc main_v24)) := by
  after_results
  rfl

theorem ops2_v35 : StableHlo.after hostOps2 W (Proc.devRef .tc main_v35) = rowK (W (Proc.devRef .tc main_arg5)) := by
  after_results
  rfl

theorem ops2_v36 : StableHlo.after hostOps2 W (Proc.devRef .tc main_v36) = rowK (W (Proc.devRef .tc main_arg7)) := by
  after_results
  rfl

theorem ops2_v37 : StableHlo.after hostOps2 W (Proc.devRef .tc main_v37) = rowK (W (Proc.devRef .tc main_arg9)) := by
  after_results
  rfl

end Stretches

variable (m : (ℓ : Loc nD τ sig) → Buf (Elt Ideal) ℓ) (ρ : Dev nD → PrngReg)

/-! ## At the first region's entry -/

theorem v1_arg0 (c : Dev nD) : V1 m ρ c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg2 (c : Dev nD) : V1 m ρ c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg3 (c : Dev nD) : V1 m ρ c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg4 (c : Dev nD) : V1 m ρ c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg5 (c : Dev nD) : V1 m ρ c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg6 (c : Dev nD) : V1 m ρ c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg7 (c : Dev nD) : V1 m ρ c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg8 (c : Dev nD) : V1 m ρ c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_arg9 (c : Dev nD) : V1 m ρ c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem v1_v1 (c : Dev nD) : V1 m ρ c main_v1 = srcK (m ((c : Thread nD τ).loc main_arg1)) := ops0_v1 (W0 m ρ c)

theorem v1_v3 (c : Dev nD) : V1 m ρ c main_v3 = dstK (m ((c : Thread nD τ).loc main_arg1)) := ops0_v3 (W0 m ρ c)

theorem v1_v11 (c : Dev nD) : V1 m ρ c main_v11 = dis2K (m ((c : Thread nD τ).loc main_arg1)) := ops0_v11 (W0 m ρ c)

/-! ## At the first region's exit -/

theorem v2_v12 (c : Dev nD) : V2 m ρ c main_v12 = xws1 (m ((c : Thread nD τ).loc main_arg0)) (m ((c : Thread nD τ).loc main_arg1)) (m ((c : Thread nD τ).loc main_arg2)) := by
  have h := (hF0 m ρ c 3).symm.trans (Region0.final (V1 m ρ) c)
  rw [v1_arg0, v1_arg2, v1_v11] at h
  exact h

theorem v2_v11 (c : Dev nD) : V2 m ρ c main_v11 = dis2K (m ((c : Thread nD τ).loc main_arg1)) :=
  ((W2_arr m ρ c 2).trans (((dat0 (V1 m ρ) c).arrAt_in 2 rfl _).trans (A_eq0 (V1 m ρ) c 2))).trans (v1_v11 m ρ c)

theorem v2_v1 (c : Dev nD) : V2 m ρ c main_v1 = srcK (m ((c : Thread nD τ).loc main_arg1)) :=
  (W2_of_ne m ρ c main_v1 (by decide)).trans (v1_v1 m ρ c)

theorem v2_v3 (c : Dev nD) : V2 m ρ c main_v3 = dstK (m ((c : Thread nD τ).loc main_arg1)) :=
  (W2_of_ne m ρ c main_v3 (by decide)).trans (v1_v3 m ρ c)

theorem v2_arg3 (c : Dev nD) : V2 m ρ c main_arg3 = m ((c : Thread nD τ).loc main_arg3) :=
  (W2_of_ne m ρ c main_arg3 (by decide)).trans (v1_arg3 m ρ c)

theorem v2_arg4 (c : Dev nD) : V2 m ρ c main_arg4 = m ((c : Thread nD τ).loc main_arg4) :=
  (W2_of_ne m ρ c main_arg4 (by decide)).trans (v1_arg4 m ρ c)

theorem v2_arg5 (c : Dev nD) : V2 m ρ c main_arg5 = m ((c : Thread nD τ).loc main_arg5) :=
  (W2_of_ne m ρ c main_arg5 (by decide)).trans (v1_arg5 m ρ c)

theorem v2_arg6 (c : Dev nD) : V2 m ρ c main_arg6 = m ((c : Thread nD τ).loc main_arg6) :=
  (W2_of_ne m ρ c main_arg6 (by decide)).trans (v1_arg6 m ρ c)

theorem v2_arg7 (c : Dev nD) : V2 m ρ c main_arg7 = m ((c : Thread nD τ).loc main_arg7) :=
  (W2_of_ne m ρ c main_arg7 (by decide)).trans (v1_arg7 m ρ c)

theorem v2_arg8 (c : Dev nD) : V2 m ρ c main_arg8 = m ((c : Thread nD τ).loc main_arg8) :=
  (W2_of_ne m ρ c main_arg8 (by decide)).trans (v1_arg8 m ρ c)

theorem v2_arg9 (c : Dev nD) : V2 m ρ c main_arg9 = m ((c : Thread nD τ).loc main_arg9) :=
  (W2_of_ne m ρ c main_arg9 (by decide)).trans (v1_arg9 m ρ c)

/-! ## At the second region's entry -/

theorem v3_v22 (c : Dev nD) : V3 m ρ c main_v22 = aggK (m ((c : Thread nD τ).loc main_arg1)) (xws1 (m ((c : Thread nD τ).loc main_arg0)) (m ((c : Thread nD τ).loc main_arg1)) (m ((c : Thread nD τ).loc main_arg2))) := by
  have h : V3 m ρ c main_v22 = aggOf (V2 m ρ c main_v3) (V2 m ρ c main_v1) (V2 m ρ c main_v12) := ops1_v22 (W2 m ρ c)
  rw [v2_v3, v2_v1, v2_v12] at h
  exact h

theorem v3_v23 (c : Dev nD) : V3 m ρ c main_v23 = rowK (m ((c : Thread nD τ).loc main_arg3)) := by
  have h : V3 m ρ c main_v23 = rowK (V2 m ρ c main_arg3) := ops1_v23 (W2 m ρ c)
  rw [v2_arg3] at h
  exact h

theorem v3_v12 (c : Dev nD) : V3 m ρ c main_v12 = xws1 (m ((c : Thread nD τ).loc main_arg0)) (m ((c : Thread nD τ).loc main_arg1)) (m ((c : Thread nD τ).loc main_arg2)) :=
  (StableHlo.after_of_forall_not_mem (b := Proc.devRef .tc main_v12) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_v12 m ρ c)

theorem v3_v11 (c : Dev nD) : V3 m ρ c main_v11 = dis2K (m ((c : Thread nD τ).loc main_arg1)) :=
  (StableHlo.after_of_forall_not_mem (b := Proc.devRef .tc main_v11) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_v11 m ρ c)

theorem v3_arg4 (c : Dev nD) : V3 m ρ c main_arg4 = m ((c : Thread nD τ).loc main_arg4) :=
  (StableHlo.after_of_forall_not_mem (b := Proc.devRef .tc main_arg4) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_arg4 m ρ c)

theorem v3_v1 (c : Dev nD) : V3 m ρ c main_v1 = srcK (m ((c : Thread nD τ).loc main_arg1)) :=
  (StableHlo.after_of_forall_not_mem (b := Proc.devRef .tc main_v1) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_v1 m ρ c)

theorem v3_v3 (c : Dev nD) : V3 m ρ c main_v3 = dstK (m ((c : Thread nD τ).loc main_arg1)) :=
  (StableHlo.after_of_forall_not_mem (b := Proc.devRef .tc main_v3) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_v3 m ρ c)

theorem v3_arg5 (c : Dev nD) : V3 m ρ c main_arg5 = m ((c : Thread nD τ).loc main_arg5) :=
  (StableHlo.after_of_forall_not_mem (b := Proc.devRef .tc main_arg5) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_arg5 m ρ c)

theorem v3_arg6 (c : Dev nD) : V3 m ρ c main_arg6 = m ((c : Thread nD τ).loc main_arg6) :=
  (StableHlo.after_of_forall_not_mem (b := Proc.devRef .tc main_arg6) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_arg6 m ρ c)

theorem v3_arg7 (c : Dev nD) : V3 m ρ c main_arg7 = m ((c : Thread nD τ).loc main_arg7) :=
  (StableHlo.after_of_forall_not_mem (b := Proc.devRef .tc main_arg7) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_arg7 m ρ c)

theorem v3_arg8 (c : Dev nD) : V3 m ρ c main_arg8 = m ((c : Thread nD τ).loc main_arg8) :=
  (StableHlo.after_of_forall_not_mem (b := Proc.devRef .tc main_arg8) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_arg8 m ρ c)

theorem v3_arg9 (c : Dev nD) : V3 m ρ c main_arg9 = m ((c : Thread nD τ).loc main_arg9) :=
  (StableHlo.after_of_forall_not_mem (b := Proc.devRef .tc main_arg9) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v2_arg9 m ρ c)

/-! ## At the second region's exit -/

theorem v4_v24 (c : Dev nD) : V4 m ρ c main_v24 = xws2 (m ((c : Thread nD τ).loc main_arg0)) (m ((c : Thread nD τ).loc main_arg1)) (m ((c : Thread nD τ).loc main_arg2)) (m ((c : Thread nD τ).loc main_arg3)) (m ((c : Thread nD τ).loc main_arg4)) := by
  have h := (hF1 m ρ c 5).symm.trans (Region1.final_5 (V3 m ρ) c)
  rw [v3_v11, v3_v22, v3_v12, v3_v23, v3_arg4] at h
  exact h

theorem v4_v11 (c : Dev nD) : V4 m ρ c main_v11 = dis2K (m ((c : Thread nD τ).loc main_arg1)) :=
  ((W4_arr m ρ c 2).trans (((dat1 (V3 m ρ) c).arrAt_in 2 rfl _).trans (A_eq1 (V3 m ρ) c 2))).trans (v3_v11 m ρ c)

theorem v4_v1 (c : Dev nD) : V4 m ρ c main_v1 = srcK (m ((c : Thread nD τ).loc main_arg1)) :=
  (W4_of_ne m ρ c main_v1 (by decide)).trans (v3_v1 m ρ c)

theorem v4_v3 (c : Dev nD) : V4 m ρ c main_v3 = dstK (m ((c : Thread nD τ).loc main_arg1)) :=
  (W4_of_ne m ρ c main_v3 (by decide)).trans (v3_v3 m ρ c)

theorem v4_arg5 (c : Dev nD) : V4 m ρ c main_arg5 = m ((c : Thread nD τ).loc main_arg5) :=
  (W4_of_ne m ρ c main_arg5 (by decide)).trans (v3_arg5 m ρ c)

theorem v4_arg6 (c : Dev nD) : V4 m ρ c main_arg6 = m ((c : Thread nD τ).loc main_arg6) :=
  (W4_of_ne m ρ c main_arg6 (by decide)).trans (v3_arg6 m ρ c)

theorem v4_arg7 (c : Dev nD) : V4 m ρ c main_arg7 = m ((c : Thread nD τ).loc main_arg7) :=
  (W4_of_ne m ρ c main_arg7 (by decide)).trans (v3_arg7 m ρ c)

theorem v4_arg8 (c : Dev nD) : V4 m ρ c main_arg8 = m ((c : Thread nD τ).loc main_arg8) :=
  (W4_of_ne m ρ c main_arg8 (by decide)).trans (v3_arg8 m ρ c)

theorem v4_arg9 (c : Dev nD) : V4 m ρ c main_arg9 = m ((c : Thread nD τ).loc main_arg9) :=
  (W4_of_ne m ρ c main_arg9 (by decide)).trans (v3_arg9 m ρ c)

/-! ## At the third region's entry -/

theorem v5_v34 (c : Dev nD) : V5 m ρ c main_v34 = aggK (m ((c : Thread nD τ).loc main_arg1)) (xws2 (m ((c : Thread nD τ).loc main_arg0)) (m ((c : Thread nD τ).loc main_arg1)) (m ((c : Thread nD τ).loc main_arg2)) (m ((c : Thread nD τ).loc main_arg3)) (m ((c : Thread nD τ).loc main_arg4))) := by
  have h : V5 m ρ c main_v34 = aggOf (V4 m ρ c main_v3) (V4 m ρ c main_v1) (V4 m ρ c main_v24) := ops2_v34 (W4 m ρ c)
  rw [v4_v3, v4_v1, v4_v24] at h
  exact h

theorem v5_v35 (c : Dev nD) : V5 m ρ c main_v35 = rowK (m ((c : Thread nD τ).loc main_arg5)) := by
  have h : V5 m ρ c main_v35 = rowK (V4 m ρ c main_arg5) := ops2_v35 (W4 m ρ c)
  rw [v4_arg5] at h
  exact h

theorem v5_v36 (c : Dev nD) : V5 m ρ c main_v36 = rowK (m ((c : Thread nD τ).loc main_arg7)) := by
  have h : V5 m ρ c main_v36 = rowK (V4 m ρ c main_arg7) := ops2_v36 (W4 m ρ c)
  rw [v4_arg7] at h
  exact h

theorem v5_v37 (c : Dev nD) : V5 m ρ c main_v37 = rowK (m ((c : Thread nD τ).loc main_arg9)) := by
  have h : V5 m ρ c main_v37 = rowK (V4 m ρ c main_arg9) := ops2_v37 (W4 m ρ c)
  rw [v4_arg9] at h
  exact h

theorem v5_v24 (c : Dev nD) : V5 m ρ c main_v24 = xws2 (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v24) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v4_v24 m ρ c)

theorem v5_v11 (c : Dev nD) : V5 m ρ c main_v11 = dis2K (m ((c : Thread nD τ).loc main_arg1)) :=
  (StableHlo.after_of_forall_not_mem (b := Proc.devRef .tc main_v11) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v4_v11 m ρ c)

theorem v5_arg6 (c : Dev nD) : V5 m ρ c main_arg6 = m ((c : Thread nD τ).loc main_arg6) :=
  (StableHlo.after_of_forall_not_mem (b := Proc.devRef .tc main_arg6) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v4_arg6 m ρ c)

theorem v5_arg8 (c : Dev nD) : V5 m ρ c main_arg8 = m ((c : Thread nD τ).loc main_arg8) :=
  (StableHlo.after_of_forall_not_mem (b := Proc.devRef .tc main_arg8) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (v4_arg8 m ρ c)

/-! ## The results -/

/-- The first result: the second layer finished. -/
theorem res0 (c : Dev nD) : W6 m ρ c (Proc.devRef .tc main_v38_0) = hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := (hF2 m ρ c 8).symm.trans (Region2.final_8 (V5 m ρ) c)
  rw [v5_v11, v5_v34, v5_v24, v5_v35] at h
  exact h

/-- The second result: the first head of the second layer. -/
theorem res1 (c : Dev nD) : W6 m ρ c (Proc.devRef .tc main_v38_1) = head (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (rowK (m ((c : Thread nD τ).loc main_arg7))) := by
  have h := (hF2 m ρ c 9).symm.trans (Region2.final_9 (V5 m ρ) c)
  rw [v5_v11, v5_v34, v5_v24, v5_v35, v5_arg6, v5_v36] at h
  exact h

/-- The third result: the second head of the second layer. -/
theorem res2 (c : Dev nD) : W6 m ρ c (Proc.devRef .tc main_v38_2) = head (hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8)) (rowK (m ((c : Thread nD τ).loc main_arg9))) := by
  have h := (hF2 m ρ c 10).symm.trans (Region2.final_10 (V5 m ρ) c)
  rw [v5_v11, v5_v34, v5_v24, v5_v35, v5_arg8, v5_v37] at h
  exact h

end Cert.KernelIdeal.Through

end
-- ==== Proof.LibGatherRows.lean ====
/-
  Row gathers read at an index.

  `x[idx]` on the leading axis of an array lowers to a `stablehlo.gather` that collapses the leading operand axis,
  takes the whole of the remaining axis (if there is one) as the offset axis, and reads one start index per result
  row off a trailing unit axis of the index array.  Result element `(r, q)` is then the operand's element
  `(clamp (idx r), q)`: the start index read as a signed integer and clamped into `[0, N − 1]`, as the gather
  clamps every start index.  Three shapes of this are read here, every extent arbitrary:
    • a matrix `[N, C]` at indices `[R, 1]`, result `[R, C]`            (`gather_rows_apply`);
    • a vector `[N]` at indices `[R, 1]`, result `[R]`                  (`gather_elts_apply`);
    • a matrix `[N, C]` at indices `[A, B, 1]`, result `[A, B, C]`      (`gather_rows3_apply`).
  The dimension records are built from their well-formedness proof, so a printed record of the same lists is
  the record here by `rfl`.
-/
import Idealize.ShloMosaic.Lib.ValueIdx

noncomputable section

namespace Cert.GatherRows

open Idealize.ShloMosaic Idealize.ShloMosaic.ValueIdx

variable {α : Type}

/-- A start index word read signed and clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) : (clampRow N hN v).val = min v.toInt.toNat (N - 1) := rfl

/-! ## A matrix at `[R, 1]` indices -/

/-- The row gather's dimension numbers for an operand `[N, C]`, start indices `[R, 1]`, result `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element `(r, q)` of the row gather is the operand's `(clamp (idx (r, 0)), q)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q) = x (ix2 (clampRow N hN (idx (ix2 r (0 : Fin 1)))) q) := by
  unfold Host.gather
  congr 1
  funext a
  refine Fin.ext ?_
  match a with
  | ⟨0, _⟩ =>
    show (rowsDims N C R wf).start (ix2 r q) idx 0 + (rowsDims N C R wf).batchCoord (ix2 r q) 0
      + (rowsDims N C R wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r q) idx 1 + (rowsDims N C R wf).batchCoord (ix2 r q) 1
      + (rowsDims N C R wf).offCoord (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-! ## A vector at `[R, 1]` indices -/

/-- The element gather's dimension numbers for an operand `[N]`, start indices `[R, 1]`, result `[R]`. -/
abbrev eltsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the element gather is the operand's `clamp (idx (r, 0))`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (eltsDims N R wf) x idx (ix1 r) = x (ix1 (clampRow N hN (idx (ix2 r (0 : Fin 1))))) := by
  unfold Host.gather
  congr 1
  funext a
  refine Fin.ext ?_
  match a with
  | ⟨0, _⟩ =>
    show (eltsDims N R wf).start (ix1 r) idx 0 + (eltsDims N R wf).batchCoord (ix1 r) 0
      + (eltsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (eltsDims N R wf).startIndexMap from List.mem_singleton.mpr rfl)]
    have hsi : (eltsDims N R wf).siIdx (ix1 r) ⟨List.idxOf (0 : Fin 1) (eltsDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## A matrix at `[A, B, 1]` indices -/

/-- The row gather's dimension numbers for an operand `[N, C]`, start indices `[A, B, 1]`, result `[A, B, C]`. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Result element `(a, b, q)` of the row gather is the operand's `(clamp (idx (a, b, 0)), q)`. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rows3Dims N C A B wf) x idx (ix3 a b q) = x (ix2 (clampRow N hN (idx (ix3 a b (0 : Fin 1)))) q) := by
  unfold Host.gather
  congr 1
  funext e
  refine Fin.ext ?_
  match e with
  | ⟨0, _⟩ =>
    show (rows3Dims N C A B wf).start (ix3 a b q) idx 0 + (rows3Dims N C A B wf).batchCoord (ix3 a b q) 0
      + (rows3Dims N C A B wf).offCoord (ix3 a b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b q) ⟨List.idxOf (0 : Fin 2) (rows3Dims N C A B wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rows3Dims N C A B wf).start (ix3 a b q) idx 1 + (rows3Dims N C A B wf).batchCoord (ix3 a b q) 1
      + (rows3Dims N C A B wf).offCoord (ix3 a b q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.GatherRows

end
-- ==== Proof.LibScatterScale.lean ====
/-
  A scatter-add against a scaling of its result.

  On the extended reals the host's accumulating scatter is, at each operand element i, the operand's value plus the
  sum of the updates that land on i.  Multiplying that sum by a factor c distributes over it when c is a real
  number that is not negative (at a negative factor, or at an infinite one, an infinite sum of mixed signs breaks
  the law).  So if the operand is 0 at i and every update that lands on i is, on the other side, the same update
  times c, the two scatters differ at i by the factor c.

  For the scatter of rows  z.at[idx].add(u)  — operand [N, C], one start index per update row in an [E, 1] index
  array, updates [E, C] — an update (e, f) that lands on (v, f') has v as its start index read signed.  With a row
  gather on the way in, this gives the identity behind a normalised neighbourhood sum: scaling row v of the result
  by D v, and every gathered row by D at its source, is the same as scaling each message by D (source) · D (target)
  before the sum, for any D whose entries are non-negative reals.
-/
import Idealize.ShloMosaic.PureOps.Ideal.Laws
import Idealize.ShloMosaic.Lib.ValueIdx
import Idealize.ShloMosaic.Lib.Pipeline.Value
import proofs.«164251_j86242943303861_2_alg».proof.Proof.LibGatherRows

noncomputable section

namespace Cert.ScatterScale

open Idealize.ShloMosaic Idealize.ShloMosaic.ValueIdx Cert.GatherRows

/-- A finite sum times a non-negative real factor is the sum of the products. -/
theorem sum_mul_of_nonneg {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- Into an operand that is 0 at i: if every update landing on i is, on the primed side, the update times c, the
    primed scatter-add at i is the other one times c. -/
theorem scatterAdd_scale {s si su : Shape} (d : ScatterDims s si su) {w : Nat} (x : s.Idx → EReal) (idx : IVec si w)
    (u u' : su.Idx → EReal) (i : s.Idx) (c : EReal) (h0 : 0 ≤ c) (ht : c ≠ ⊤) (hx : x i = 0)
    (hu : ∀ j, d.resultIdx? j idx = some i → u' j = u j * c) :
    Ideal.hostScatterAdd d x idx u' i = Ideal.hostScatterAdd d x idx u i * c := by
  unfold Ideal.hostScatterAdd
  rw [hx, zero_add, zero_add, sum_mul_of_nonneg _ _ h0 ht]
  exact Finset.sum_congr rfl fun j hj => hu j (Finset.mem_filter.mp hj).2

/-- The dimension numbers of a scatter of rows: operand [N, C], start indices [E, 1], updates [E, C]. -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element of row e that lands on an operand element of row v has v as its start index, read signed. -/
theorem land_row {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) (v : Fin N) (f' : Fin C)
    (h : (rowsDims N C E wf).resultIdx? (ix2 e f) idx = some (ix2 v f')) :
    (idx (ix2 e (0 : Fin 1))).toInt = (v.val : Int) := by
  unfold ScatterDims.resultIdx? at h
  split at h
  · rename_i hall
    have h0 := hall 0
    have hi := congrFun (Option.some.inj h) 0
    have hi0 : ((rowsDims N C E wf).start (ix2 e f) idx 0 + (rowsDims N C E wf).window (ix2 e f) 0).toNat = v.val :=
      congrArg Fin.val hi
    have hs : (rowsDims N C E wf).start (ix2 e f) idx 0 = (idx (ix2 e (0 : Fin 1))).toInt := by
      unfold ScatterDims.start
      rw [dif_pos (show (0 : Fin 2) ∈ (rowsDims N C E wf).scatterDimsToOperandDims from List.mem_singleton.mpr rfl)]
      have hsi : (rowsDims N C E wf).siIdx (ix2 e f) ⟨List.idxOf (0 : Fin 2) (rowsDims N C E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw : (rowsDims N C E wf).window (ix2 e f) 0 = 0 := by
      unfold ScatterDims.window
      rw [dif_neg (show (0 : Fin 2) ∉ (rowsDims N C E wf).sKept from fun hm =>
        (List.mem_filter.mp hm).2 |> fun hn => by simp at hn)]
    rw [hs, hw] at hi0 h0
    omega
  · cases h

end Cert.ScatterScale

end
-- ==== Proof.LibNormSum.lean ====
/-
  A normalised neighbourhood sum, two ways.

  Nodes 0 … N − 1 carry feature rows H (an [N, C] array) and a weight D per node; each of E edges names a source
  row (a start index array SI, read signed and clamped as a gather reads it) and a target row (DI, read signed and
  not clamped, as a scatter reads it; an edge whose target lies outside [0, N) is dropped).  The sum over the edges
  into a node v of  H (source) · D (source) · D (v)  can be computed with the factor D (v) taken out of the sum:
  scale row u of H by D u once, gather, scatter-add, and scale row v of the result by D v; or with the factor
  D (source) · D (target) multiplied into every message before the scatter-add, the target's weight gathered at the
  target index array DW, which names v on every edge that lands on v.  The two agree whenever every D v is a
  non-negative real: the products are reassociated edge by edge, and the common factor D v distributes over the sum
  at v.
-/
import proofs.«164251_j86242943303861_2_alg».proof.Proof.LibScatterScale

noncomputable section

namespace Cert.NormSum

open Idealize.ShloMosaic Idealize.ShloMosaic.ValueIdx

/-- An [N, 1] column repeated across C columns reads the column's entry of the row. -/
theorem col_apply {N C : Nat} (gc : (⟨2, ![N, 1]⟩ : Shape).BroadcastsInDim ⟨2, ![N, C]⟩ ![0, 1])
    (Dc : (⟨2, ![N, 1]⟩ : Shape).Idx → EReal) (v : Fin N) (f : Fin C) :
    broadcastInDim ⟨2, ![N, C]⟩ ![0, 1] gc Dc (ix2 v f) = Dc (ix2 v (0 : Fin 1)) := by
  have hv := v.isLt
  refine broadcastInDim_apply _ gc _ (ix2 v f) (ix2 v (0 : Fin 1)) fun a => ?_
  match a with
  | ⟨0, _⟩ =>
    show v.val = if N = 1 then 0 else v.val
    split <;> omega
  | ⟨1, _⟩ => rfl

/-- An [E] vector viewed as an [E, 1] column and repeated across C columns reads the vector's entry of the row. -/
theorem vec_col_apply {E C : Nat} (b1 : (⟨1, ![E]⟩ : Shape).BroadcastsInDim ⟨2, ![E, 1]⟩ ![0])
    (b2 : (⟨2, ![E, 1]⟩ : Shape).BroadcastsInDim ⟨2, ![E, C]⟩ ![0, 1])
    (X : (⟨1, ![E]⟩ : Shape).Idx → EReal) (e : Fin E) (f : Fin C) :
    broadcastInDim ⟨2, ![E, C]⟩ ![0, 1] b2 (broadcastInDim ⟨2, ![E, 1]⟩ ![0] b1 X) (ix2 e f) = X (ix1 e) := by
  have he := e.isLt
  refine (col_apply b2 _ e f).trans ?_
  refine broadcastInDim_apply _ b1 X (ix2 e (0 : Fin 1)) (ix1 e) fun a => ?_
  match a with
  | ⟨0, _⟩ =>
    show e.val = if E = 1 then 0 else e.val
    split <;> omega

/-- The factor of the target row taken out of the sum, against the factor of source and target multiplied into every
    message. -/
theorem scaled_sum {N C E : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (H Z : (⟨2, ![N, C]⟩ : Shape).Idx → EReal) (D : (⟨1, ![N]⟩ : Shape).Idx → EReal)
    (Dc : (⟨2, ![N, 1]⟩ : Shape).Idx → EReal)
    (hDc : ∀ v : Fin N, Dc (ix2 v (0 : Fin 1)) = D (ix1 v))
    (hD : ∀ v : Fin N, 0 ≤ D (ix1 v) ∧ D (ix1 v) ≠ ⊤)
    (hZ : ∀ i, Z i = 0)
    (SI DI DW : IVec ⟨2, ![E, 1]⟩ 32)
    (hDW : ∀ (e : Fin E) (v : Fin N), (DI (ix2 e (0 : Fin 1))).toInt = (v.val : Int) →
      GatherRows.clampRow N hN (DW (ix2 e (0 : Fin 1))) = v)
    (gc : (⟨2, ![N, 1]⟩ : Shape).BroadcastsInDim ⟨2, ![N, C]⟩ ![0, 1])
    (b1 : (⟨1, ![E]⟩ : Shape).BroadcastsInDim ⟨2, ![E, 1]⟩ ![0])
    (b2 : (⟨2, ![E, 1]⟩ : Shape).BroadcastsInDim ⟨2, ![E, C]⟩ ![0, 1]) :
    mulf (F := Ideal) (φ := .f32)
        (Host.scatterAdd (F := Ideal) (φ := .f32) (ScatterScale.rowsDims N C E wfS) Z DI
          (Host.gather (GatherRows.rowsDims N C E wfG)
            (mulf (F := Ideal) (φ := .f32) H (broadcastInDim ⟨2, ![N, C]⟩ ![0, 1] gc Dc)) SI))
        (broadcastInDim ⟨2, ![N, C]⟩ ![0, 1] gc Dc)
      = Host.scatterAdd (F := Ideal) (φ := .f32) (ScatterScale.rowsDims N C E wfS) Z DI
          (mulf (F := Ideal) (φ := .f32) (Host.gather (GatherRows.rowsDims N C E wfG) H SI)
            (broadcastInDim ⟨2, ![E, C]⟩ ![0, 1] b2 (broadcastInDim ⟨2, ![E, 1]⟩ ![0] b1
              (mulf (F := Ideal) (φ := .f32) (Host.gather (GatherRows.eltsDims N E wfG1) D SI)
                (Host.gather (GatherRows.eltsDims N E wfG1) D DW))))) := by
  funext i
  obtain ⟨v, f, rfl⟩ : ∃ (v : Fin N) (f : Fin C), i = ix2 v f := ⟨i 0, i 1, eq_ix2 i⟩
  have hc : ∀ (u : Fin N) (g : Fin C), broadcastInDim ⟨2, ![N, C]⟩ ![0, 1] gc Dc (ix2 u g) = D (ix1 u) :=
    fun u g => (col_apply gc Dc u g).trans (hDc u)
  rw [mulf_apply, hc]
  symm
  refine ScatterScale.scatterAdd_scale _ Z DI _ _ (ix2 v f) (D (ix1 v)) (hD v).1 (hD v).2 (hZ _) fun j hj => ?_
  obtain ⟨e, f', rfl⟩ : ∃ (e : Fin E) (f' : Fin C), j = ix2 e f' := ⟨j 0, j 1, eq_ix2 j⟩
  have hv := ScatterScale.land_row wfS DI e f' v f hj
  rw [mulf_apply, GatherRows.gather_rows_apply hN, GatherRows.gather_rows_apply hN, mulf_apply, hc, vec_col_apply,
    mulf_apply, GatherRows.gather_elts_apply hN, GatherRows.gather_elts_apply hN, hDW e v hv, mul_assoc]

end Cert.NormSum

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibDegree.lean ====
/-
  In-degrees with self-loops, and the node weights they give.

  The degree of node v is a scatter-add of ones: 0 plus one for every edge whose target index, read signed, is v
  (an edge whose target lies outside [0, N) is dropped). When every node has at least one edge landing on it — its
  self-loop — the degree is a positive whole number n. Then the larger of n and 1 is n, and n^(-1/2) is a
  non-negative real number: the node weights with and without the guard agree, and they are the kind of factor that
  may be moved across a sum on the extended reals.
-/
import Idealize.ShloMosaic.PureOps.Ideal.Laws
import Idealize.ShloMosaic.Lib.ValueIdx
import Idealize.ShloMosaic.Lib.IdealHost
import Idealize.ShloMosaic.Lib.Pipeline.Value
import proofs.«164251_j86242943303861_2_alg».proof.Proof.LibRowOps

noncomputable section

namespace Cert.Degree

open Idealize.ShloMosaic Idealize.ShloMosaic.ValueIdx

/-- The dimension numbers of a scatter of single elements into a vector: operand [N], start indices [E, 1], updates [E]. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update e starts at its index entry, read signed. -/
theorem start_eq (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem window_eq (e : Fin E) : (vecDims N E wf).window (ix1 e) 0 = 0 := by
  unfold ScatterDims.window
  rw [dif_neg (show (0 : Fin 1) ∉ (vecDims N E wf).sKept from fun hm =>
    (List.mem_filter.mp hm).2 |> fun hn => by simp at hn)]

/-- An update whose index entry, read signed, is v lands on element v. -/
theorem lands (idx : IVec ⟨2, ![E, 1]⟩ w) (e : Fin E) (v : Fin N)
    (h : (idx (ix2 e (0 : Fin 1))).toInt = (v.val : Int)) :
    (vecDims N E wf).resultIdx? (ix1 e) idx = some (ix1 v) := by
  have hv := v.isLt
  have hs := start_eq wf idx e
  have hw := window_eq (N := N) wf e
  unfold ScatterDims.resultIdx?
  have hall : ∀ a, 0 ≤ (vecDims N E wf).start (ix1 e) idx a + (vecDims N E wf).window (ix1 e) a
      ∧ (vecDims N E wf).start (ix1 e) idx a + (vecDims N E wf).window (ix1 e) a < (⟨1, ![N]⟩ : Shape).size a := by
    intro a
    match a with
    | ⟨0, _⟩ =>
      show 0 ≤ (vecDims N E wf).start (ix1 e) idx 0 + (vecDims N E wf).window (ix1 e) 0
        ∧ (vecDims N E wf).start (ix1 e) idx 0 + (vecDims N E wf).window (ix1 e) 0 < (N : Int)
      rw [hs, hw, h]
      omega
  rw [dif_pos hall]
  refine congrArg some (funext fun a => Fin.ext ?_)
  match a with
  | ⟨0, _⟩ =>
    show ((vecDims N E wf).start (ix1 e) idx 0 + (vecDims N E wf).window (ix1 e) 0).toNat = v.val
    rw [hs, hw, h]
    omega

/-- A count of ones is the whole number counted. -/
theorem sum_ones {ι : Type} (s : Finset ι) (f : ι → EReal) (hf : ∀ j, f j = 1) : ∑ j ∈ s, f j = (s.card : EReal) := by
  rw [Finset.sum_congr rfl (fun j _ => hf j), Finset.sum_const, nsmul_one]

/-- The degree of a node with an edge landing on it is a positive whole number. -/
theorem degree_pos (idx : IVec ⟨2, ![E, 1]⟩ w) (Z : (⟨1, ![N]⟩ : Shape).Idx → EReal) (hZ : ∀ i, Z i = 0)
    (U : (⟨1, ![E]⟩ : Shape).Idx → EReal) (hU : ∀ j, U j = 1) (v : Fin N)
    (hloop : ∃ e : Fin E, (idx (ix2 e (0 : Fin 1))).toInt = (v.val : Int)) :
    ∃ n : ℕ, 1 ≤ n ∧ Ideal.hostScatterAdd (vecDims N E wf) Z idx U (ix1 v) = (n : EReal) := by
  unfold Ideal.hostScatterAdd
  rw [hZ, zero_add, sum_ones _ U hU]
  obtain ⟨e, he⟩ := hloop
  exact ⟨_, Finset.card_pos.mpr ⟨ix1 e, Finset.mem_filter.mpr ⟨Finset.mem_univ _, lands wf idx e v he⟩⟩, rfl⟩

/-- n^(-1/2) of a positive whole number is a non-negative real. -/
theorem rsqrt_nat {n : ℕ} (hn : 1 ≤ n) : 0 ≤ Ideal.rsqrt (n : EReal) ∧ Ideal.rsqrt (n : EReal) ≠ ⊤ := by
  have h1 : ¬ ((n : ℝ) < 0) := not_lt.mpr (Nat.cast_nonneg n)
  have h2 : (n : ℝ) ≠ 0 := Nat.cast_ne_zero.mpr (by omega)
  have e : Ideal.rsqrt (n : EReal) = (((Real.sqrt n)⁻¹ : ℝ) : EReal) := by
    rw [← EReal.coe_natCast, Ideal.rsqrt_coe, if_neg h1, if_neg h2]
  rw [e]
  exact ⟨EReal.coe_nonneg.mpr (inv_nonneg.mpr (Real.sqrt_nonneg _)), EReal.coe_ne_top _⟩

/-- The larger of a positive whole number and one is the number. -/
theorem max_one {n : ℕ} (hn : 1 ≤ n) : max (n : EReal) 1 = (n : EReal) := by
  refine max_eq_left ?_
  rw [← EReal.coe_natCast, ← EReal.coe_one, EReal.coe_le_coe_iff]
  exact_mod_cast hn

/-- The node weights: with every node's self-loop counted, rsqrt of the guarded degree (kept as a column) is rsqrt of
    the degree, a non-negative real. -/
theorem weights (idx : IVec ⟨2, ![E, 1]⟩ 32) (Z : FVec Ideal ⟨1, ![N]⟩ .f32) (hZ : ∀ i, Z i = 0)
    (U : FVec Ideal ⟨1, ![E]⟩ .f32) (hU : ∀ j, U j = 1) (One : FVec Ideal ⟨1, ![N]⟩ .f32) (hOne : ∀ i, One i = 1)
    (hloop : ∀ v : Fin N, ∃ e : Fin E, (idx (ix2 e (0 : Fin 1))).toInt = (v.val : Int))
    (hc : (⟨1, ![N]⟩ : Shape).ShapeCasts ⟨2, ![N, 1]⟩) (v : Fin N) :
    shapeCast ⟨2, ![N, 1]⟩ (Host.rsqrt (maximumf (F := Ideal) (Host.scatterAdd (F := Ideal) (φ := .f32) (vecDims N E wf) Z idx U) One)) hc (ix2 v (0 : Fin 1))
        = Host.rsqrt (Host.scatterAdd (F := Ideal) (φ := .f32) (vecDims N E wf) Z idx U) (ix1 v)
      ∧ 0 ≤ Host.rsqrt (Host.scatterAdd (F := Ideal) (φ := .f32) (vecDims N E wf) Z idx U) (ix1 v)
      ∧ Host.rsqrt (Host.scatterAdd (F := Ideal) (φ := .f32) (vecDims N E wf) Z idx U) (ix1 v) ≠ ⊤ := by
  obtain ⟨n, hn, hdeg⟩ := degree_pos wf idx Z hZ U hU v (hloop v)
  have hR : Host.rsqrt (Host.scatterAdd (F := Ideal) (φ := .f32) (vecDims N E wf) Z idx U) (ix1 v) = Ideal.rsqrt (n : EReal) :=
    congrArg Ideal.rsqrt hdeg
  refine ⟨?_, hR ▸ (rsqrt_nat hn).1, hR ▸ (rsqrt_nat hn).2⟩
  rw [RowOps.shapeCast_a_a1_apply _ hc v (0 : Fin 1), hR]
  show Ideal.rsqrt (max (Ideal.hostScatterAdd (vecDims N E wf) Z idx U (ix1 v)) (One (ix1 v))) = _
  rw [hdeg, hOne, max_one hn]

end Cert.Degree

end
-- ==== Proof.LibGcnLaw.lean ====
/-
  One graph-convolution layer, two ways.

  With XW the node features times the weight matrix, D v the weight of node v and B the bias, the kernel's
  arrangement of a layer is
      D v · ( Σ over edges e into v of XW (src e) · D (src e)  +  XW v · D v ) + B,
  the factor D v taken out of the neighbourhood sum and out of the node's own term, and the reference's is
      Σ over edges e into v of XW (src e) · (D (src e) · D (dst e))  +  (D v · D v) · XW v  +  B.
  They agree because D v is a non-negative real number: such a factor distributes over a sum of extended reals
  (an infinite or a negative factor would not), and an edge that lands on v has dst e = v. The weights are
  D v = (deg v + 1)^(-1/2) with deg v the number of edges landing on v, a positive whole number under the root, so
  they are non-negative reals whatever the edge list is. The reference gathers D at dst e after wrapping negative
  indices and clamping; on an edge that lands on v the index is v itself, in range, and both leave it alone.

  Also here, for stating a reference's side conditions: a one-column index array and a splat read at an index, the
  float words of zero and of one, the host's matrix product as the same sum over k as the kernel-side one, and a bias
  viewed as a row and repeated down the rows as the bias broadcast twice. Every extent is arbitrary.
-/
import proofs.«164251_j86242943303861_2_alg».proof.Proof.LibNormSum
import proofs.«164251_j86242943303861_2_alg».proof.Proof.LibDegree
import proofs.«164251_j86242943303861_2_alg».proof.Proof.LibGcnDense

noncomputable section

namespace Cert.Gcn

open Idealize.ShloMosaic Idealize.ShloMosaic.ValueIdx Cert.Tile

/-- The node weights (deg + 1)^(-1/2), deg a scatter-add of ones into zeros, are non-negative real numbers. -/
theorem weight_real {N E : Nat} (wf : ScatterDims.WF ⟨1, ![N]⟩ ⟨2, ![E, 1]⟩ ⟨1, ![E]⟩ [] [0] [0] 1)
    (idx : IVec ⟨2, ![E, 1]⟩ 32) (Z : FVec Ideal ⟨1, ![N]⟩ .f32) (hZ : ∀ i, Z i = 0)
    (U : FVec Ideal ⟨1, ![E]⟩ .f32) (hU : ∀ j, U j = 1) (One : FVec Ideal ⟨1, ![N]⟩ .f32) (hOne : ∀ i, One i = 1)
    (v : Fin N) :
    0 ≤ Host.rsqrt (addf (F := Ideal) (φ := .f32)
          (Host.scatterAdd (F := Ideal) (φ := .f32) (Degree.vecDims N E wf) Z idx U) One) (ix1 v)
      ∧ Host.rsqrt (addf (F := Ideal) (φ := .f32)
          (Host.scatterAdd (F := Ideal) (φ := .f32) (Degree.vecDims N E wf) Z idx U) One) (ix1 v) ≠ ⊤ := by
  have hdeg : ∃ n : ℕ, addf (F := Ideal) (φ := .f32)
      (Host.scatterAdd (F := Ideal) (φ := .f32) (Degree.vecDims N E wf) Z idx U) One (ix1 v) = ((n + 1 : ℕ) : EReal) := by
    show ∃ n : ℕ, Ideal.hostScatterAdd (Degree.vecDims N E wf) Z idx U (ix1 v) + One (ix1 v) = ((n + 1 : ℕ) : EReal)
    unfold Ideal.hostScatterAdd
    rw [hZ, zero_add, Degree.sum_ones _ U hU, hOne]
    exact ⟨_, (Nat.cast_succ _).symm⟩
  obtain ⟨n, hn⟩ := hdeg
  have hR : Host.rsqrt (addf (F := Ideal) (φ := .f32)
      (Host.scatterAdd (F := Ideal) (φ := .f32) (Degree.vecDims N E wf) Z idx U) One) (ix1 v)
      = Ideal.rsqrt ((n + 1 : ℕ) : EReal) := congrArg Ideal.rsqrt hn
  rw [hR]
  exact Degree.rsqrt_nat (Nat.le_add_left 1 n)

/-- A start index that names node v, in range, is unchanged by the wrap of negative indices and by the clamp. -/
theorem wrap_clamp {N : Nat} (hN : 0 < N) (nw d : BitVec 32) (v : Fin N) (h : d.toInt = (v.val : Int)) :
    GatherRows.clampRow N hN (Scalar.select (IntOp.cmpi .slt d 0#32) (IntOp.addi d nw) d) = v := by
  have hv := v.isLt
  have hs : IntOp.cmpi .slt d 0#32 = 0#1 := by
    unfold IntOp.cmpi
    have : d.slt 0#32 = false := by
      rw [BitVec.slt, h]
      simp
    simp [this]
  rw [hs]
  refine Fin.ext ?_
  show min (Scalar.select 0#1 (IntOp.addi d nw) d).toInt.toNat (N - 1) = v.val
  have : Scalar.select 0#1 (IntOp.addi d nw) d = d := by
    unfold Scalar.select
    simp
  rw [this, h]
  simp
  omega

/-- d · (a + xw · d) + b = a · d + (d · d) · xw + b for a non-negative real d. -/
theorem regroup (a xw d b : EReal) (h0 : 0 ≤ d) (ht : d ≠ ⊤) : d * (a + xw * d) + b = a * d + d * d * xw + b := by
  rw [EReal.left_distrib_of_nonneg_of_ne_top h0 ht, mul_comm d a, ← mul_assoc d xw d, mul_comm d xw, mul_assoc xw d d,
    mul_comm xw (d * d)]

/-- The kernel's arrangement of a layer equals the reference's. -/
theorem layer_law {N C E : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (XW Z B : Arr2 N C) (D : (⟨1, ![N]⟩ : Shape).Idx → EReal) (Dc : Arr2 N 1)
    (hDc : ∀ v : Fin N, Dc (ix2 v (0 : Fin 1)) = D (ix1 v))
    (hD : ∀ v : Fin N, 0 ≤ D (ix1 v) ∧ D (ix1 v) ≠ ⊤) (hZ : ∀ i, Z i = 0)
    (SI DI DW : IVec ⟨2, ![E, 1]⟩ 32)
    (hDW : ∀ (e : Fin E) (v : Fin N), (DI (ix2 e (0 : Fin 1))).toInt = (v.val : Int) →
      GatherRows.clampRow N hN (DW (ix2 e (0 : Fin 1))) = v)
    (b1 : (⟨1, ![E]⟩ : Shape).BroadcastsInDim ⟨2, ![E, 1]⟩ ![0])
    (b2 : (⟨2, ![E, 1]⟩ : Shape).BroadcastsInDim ⟨2, ![E, C]⟩ ![0, 1])
    (c1 : (⟨1, ![N]⟩ : Shape).BroadcastsInDim ⟨2, ![N, 1]⟩ ![0])
    (c2 : (⟨2, ![N, 1]⟩ : Shape).BroadcastsInDim ⟨2, ![N, C]⟩ ![0, 1]) :
    (fun i => colB C Dc i * (Host.scatterAdd (F := Ideal) (φ := .f32) (ScatterScale.rowsDims N C E wfS) Z DI
        (Host.gather (GatherRows.rowsDims N C E wfG) (fun i => XW i * colB C Dc i) SI) i + XW i * colB C Dc i) + B i)
      = addf (F := Ideal) (φ := .f32) (addf (F := Ideal) (φ := .f32)
          (Host.scatterAdd (F := Ideal) (φ := .f32) (ScatterScale.rowsDims N C E wfS) Z DI
            (mulf (F := Ideal) (φ := .f32) (Host.gather (GatherRows.rowsDims N C E wfG) XW SI)
              (broadcastInDim ⟨2, ![E, C]⟩ ![0, 1] b2 (broadcastInDim ⟨2, ![E, 1]⟩ ![0] b1
                (mulf (F := Ideal) (φ := .f32) (Host.gather (GatherRows.eltsDims N E wfG1) D SI)
                  (Host.gather (GatherRows.eltsDims N E wfG1) D DW))))))
          (mulf (F := Ideal) (φ := .f32)
            (broadcastInDim ⟨2, ![N, C]⟩ ![0, 1] c2 (broadcastInDim ⟨2, ![N, 1]⟩ ![0] c1 (mulf (F := Ideal) (φ := .f32) D D)))
            XW)) B := by
  funext i
  obtain ⟨v, f, rfl⟩ : ∃ (v : Fin N) (f : Fin C), i = ix2 v f := ⟨i 0, i 1, eq_ix2 i⟩
  have hs := congrFun (NormSum.scaled_sum hN wfS wfG wfG1 XW Z D Dc hDc hD hZ SI DI DW hDW (bidCol N C) b1 b2) (ix2 v f)
  have hc : colB C Dc (ix2 v f) = D (ix1 v) := (NormSum.col_apply (bidCol N C) Dc v f).trans (hDc v)
  have hdd : broadcastInDim ⟨2, ![N, C]⟩ ![0, 1] c2
      (broadcastInDim ⟨2, ![N, 1]⟩ ![0] c1 (mulf (F := Ideal) (φ := .f32) D D)) (ix2 v f) = D (ix1 v) * D (ix1 v) :=
    NormSum.vec_col_apply c1 c2 _ v f
  rw [mulf_apply] at hs
  rw [addf_apply, addf_apply, mulf_apply, hdd, ← hs]
  show colB C Dc (ix2 v f) * (Host.scatterAdd (F := Ideal) (φ := .f32) (ScatterScale.rowsDims N C E wfS) Z DI
        (Host.gather (GatherRows.rowsDims N C E wfG) (fun i => XW i * colB C Dc i) SI) (ix2 v f)
        + XW (ix2 v f) * colB C Dc (ix2 v f)) + B (ix2 v f)
      = Host.scatterAdd (F := Ideal) (φ := .f32) (ScatterScale.rowsDims N C E wfS) Z DI
        (Host.gather (GatherRows.rowsDims N C E wfG) (fun i => XW i * colB C Dc i) SI) (ix2 v f)
        * colB C Dc (ix2 v f) + D (ix1 v) * D (ix1 v) * XW (ix2 v f) + B (ix2 v f)
  rw [hc]
  exact regroup _ _ _ _ (hD v).1 (hD v).2

/-! ## The two spellings of the dense steps, and small reads at an index -/

/-- A one-column index array reads the list's entry of the row. -/
theorem col_idx {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  have he := e.isLt
  refine broadcastInDim_apply _ h v (ix2 e (0 : Fin 1)) (ix1 e) fun a => ?_
  match a with
  | ⟨0, _⟩ =>
    show e.val = if E = 1 then 0 else e.val
    split <;> omega

/-- A splat reads the one value. -/
theorem splat_idx {α : Type} {s : Shape} (h : (⟨0, ![]⟩ : Shape).BroadcastsInDim s ![])
    (x : (⟨0, ![]⟩ : Shape).Idx → α) (i : s.Idx) : broadcastInDim s ![] h x i = x ix0 :=
  broadcastInDim_apply _ h x i ix0 fun a => a.elim0

/-- The float word of one denotes the number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- The host's product of an M × K by a K × N matrix is the same sum over k as the kernel-side product. -/
theorem dot_eq {M K N : Nat} (d : DotDims ⟨2, ![M, K]⟩ ⟨2, ![K, N]⟩ ⟨2, ![M, N]⟩) (hd : d = DotDims.plain M K N)
    (X : Arr2 M K) (W : Arr2 K N) :
    Host.dotGeneral (F := Ideal) (φ₁ := .f32) (φ₂ := .f32) d none X W = mm X W := by
  subst hd
  funext j
  simp only [Host.dotGeneral]
  rw [Ideal.dotGeneral_apply]
  exact (zero_add _).symm

/-- A bias viewed as a 1 × C row and repeated down M rows is the bias broadcast to 1 × C and then to M × C. -/
theorem bias_eq {M C : Nat} (b : (⟨1, ![C]⟩ : Shape).Idx → EReal) (h1 : (⟨1, ![C]⟩ : Shape).ShapeCasts ⟨2, ![1, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    rowB M (shapeCast ⟨2, ![1, C]⟩ b h1) = broadcastInDim ⟨2, ![M, C]⟩ ![0, 1] g2 (broadcastInDim ⟨2, ![1, C]⟩ ![1] g1 b) := by
  funext i
  obtain ⟨v, f, rfl⟩ : ∃ (v : Fin M) (f : Fin C), i = ix2 v f := ⟨i 0, i 1, eq_ix2 i⟩
  have hf := f.isLt
  have row : ∀ (r : Arr2 1 C) (g : (⟨2, ![1, C]⟩ : Shape).BroadcastsInDim ⟨2, ![M, C]⟩ ![0, 1]),
      broadcastInDim ⟨2, ![M, C]⟩ ![0, 1] g r (ix2 v f) = r (ix2 ⟨0, Nat.one_pos⟩ f) := by
    intro r g
    refine broadcastInDim_apply _ g r (ix2 v f) (ix2 ⟨0, Nat.one_pos⟩ f) fun a => ?_
    match a with
    | ⟨0, _⟩ => rfl
    | ⟨1, _⟩ =>
      show f.val = if C = 1 then 0 else f.val
      split <;> omega
  unfold rowB
  rw [row, row]
  have eL : shapeCast ⟨2, ![1, C]⟩ b h1 (ix2 ⟨0, Nat.one_pos⟩ f) = b (ix1 f) := by
    refine shapeCast_apply b h1 (ix2 ⟨0, Nat.one_pos⟩ f) (ix1 f) ?_
    rw [Shape.rowMajor_val_one, Shape.rowMajor_val_two]
    show f.val = 0 * C + f.val
    omega
  have eR : broadcastInDim ⟨2, ![1, C]⟩ ![1] g1 b (ix2 ⟨0, Nat.one_pos⟩ f) = b (ix1 f) := by
    refine broadcastInDim_apply _ g1 b (ix2 ⟨0, Nat.one_pos⟩ f) (ix1 f) fun a => ?_
    match a with
    | ⟨0, _⟩ =>
      show f.val = if C = 1 then 0 else f.val
      split <;> omega
  rw [eL, eR]

/-- A splat of the zero word is zero everywhere. -/
theorem zero_nc {s : Shape} {h : (⟨0, ![]⟩ : Shape).BroadcastsInDim s ![]} (z : (⟨0, ![]⟩ : Shape).Idx → EReal)
    (hz : z = constant (F := Ideal) ⟨0, ![]⟩ .f32 0x00000000#32) (i : s.Idx) :
    broadcastInDim s ![] h z i = 0 := by
  subst hz
  exact (splat_idx h _ i).trans Ideal.ofBits_zero_f32

/-- A splat of the word of one is one everywhere. -/
theorem one_nc {s : Shape} {h : (⟨0, ![]⟩ : Shape).BroadcastsInDim s ![]} (z : (⟨0, ![]⟩ : Shape).Idx → EReal)
    (hz : z = constant (F := Ideal) ⟨0, ![]⟩ .f32 0x3F800000#32) (i : s.Idx) :
    broadcastInDim s ![] h z i = 1 := by
  subst hz
  exact (splat_idx h _ i).trans ofBits_one_f32

end Cert.Gcn

end
-- ==== Proof.Bridge.lean ====
/-
  The kernel's three results are the reference's.

  Both programs compute the node weights from the edge list by the same operations. In each layer the reference
  multiplies every gathered message by the weights of its two end nodes and adds the node's own features times its
  squared weight; the kernel scales each node's features by its weight once, sums the gathered rows, and scales row
  v of the sum by the weight of v: the two agree by the layer law, whose side conditions are read off the
  reference's own stages — the weights are non-negative reals, the scatter's operand is zero, an edge that lands on
  v names v at its wrapped and clamped target index. A product with a weight matrix is the same sum over k in the
  kernel's spelling and in the host's, a bias viewed as a row and repeated down the rows is the bias broadcast twice,
  and the maximum with zero is taken entry by entry in both. Composing: layer one, its maximum with zero, layer two
  (the first result), and a linear head with a maximum with zero, twice (the second and third results).
-/
import proofs.«164251_j86242943303861_2_alg».proof.Proof.Through
import proofs.«164251_j86242943303861_2_alg».proof.Proof.Gen.ReferenceIdeal.Read
import proofs.«164251_j86242943303861_2_alg».proof.Proof.LibGcnLaw

set_option maxRecDepth 16384

noncomputable section

namespace Cert.Bridge

open Idealize.ShloMosaic Idealize.ShloMosaic.ValueIdx Cert.Gcn Cert.Tile
open Cert.ReferenceIdeal.Read
open Cert.KernelIdeal.Through (srcK dstK wrapK colK disK dis2K aggOf aggK rowK xws1 xws2 hid)

theorem hN : 0 < 100000 := by decide

/-- The weight column reads the reference's weight of the row. -/
theorem col_weight (ei : IVec ⟨2, ![2, 1600000]⟩ 32) (v : Fin 100000) :
    dis2K ei (ix2 v (0 : Fin 1)) = val_main_v10 (F := Ideal) ei (ix1 v) :=
  RowOps.shapeCast_a_a1_apply (disK ei) _ v (0 : Fin 1)

/-- The reference's node weights are non-negative real numbers. -/
theorem weight_ok (ei : IVec ⟨2, ![2, 1600000]⟩ 32) (v : Fin 100000) :
    0 ≤ val_main_v10 (F := Ideal) ei (ix1 v) ∧ val_main_v10 (F := Ideal) ei (ix1 v) ≠ ⊤ :=
  weight_real Cert.ReferenceIdeal.Gen.scatter_S100000_S1600000x1_S1600000_n_0_0_1_wf (val_main_v6 (F := Ideal) ei)
    (val_main_v5 (F := Ideal)) (fun i => zero_nc (val_main_cst_0 (F := Ideal)) rfl i)
    (val_main_v4 (F := Ideal)) (fun j => one_nc (val_main_cst (F := Ideal)) rfl j)
    (val_main_v8 (F := Ideal)) (fun i => one_nc (val_main_cst_1 (F := Ideal)) rfl i) v

/-- On an edge that lands on node v, the reference's wrapped and clamped target index (layer 1) is v. -/
theorem land_1 (ei : IVec ⟨2, ![2, 1600000]⟩ 32) (e : Fin 1600000) (v : Fin 100000)
    (h : (val_main_v38 (F := Ideal) ei (ix2 e (0 : Fin 1))).toInt = (v.val : Int)) :
    GatherRows.clampRow 100000 hN (val_main_v24 (F := Ideal) ei (ix2 e (0 : Fin 1))) = v := by
  have eDI : val_main_v38 (F := Ideal) ei (ix2 e (0 : Fin 1)) = val_main_v3 (F := Ideal) ei (ix1 e) :=
    col_idx Cert.ReferenceIdeal.Gen.bcast_S1600000_S1600000x1_0 (val_main_v3 (F := Ideal) ei) e
  have eDW : val_main_v24 (F := Ideal) ei (ix2 e (0 : Fin 1)) = val_main_v23 (F := Ideal) ei (ix1 e) :=
    col_idx Cert.ReferenceIdeal.Gen.bcast_S1600000_S1600000x1_0 (val_main_v23 (F := Ideal) ei) e
  have e0 : val_main_v19 (F := Ideal) (ix1 e) = 0#32 := splat_idx Cert.ReferenceIdeal.Gen.bcast_S_S1600000 _ _
  rw [eDI] at h
  rw [eDW]
  show GatherRows.clampRow 100000 hN (Scalar.select
      (IntOp.cmpi .slt (val_main_v3 (F := Ideal) ei (ix1 e)) (val_main_v19 (F := Ideal) (ix1 e)))
      (IntOp.addi (val_main_v3 (F := Ideal) ei (ix1 e)) (val_main_v21 (F := Ideal) (ix1 e)))
      (val_main_v3 (F := Ideal) ei (ix1 e))) = v
  rw [e0]
  exact wrap_clamp hN _ _ v h

/-- Layer 1: the kernel's arrangement, from the layer's input X, is the reference's stage. -/
theorem layer_1 (x : Arr2 100000 128) (ei : IVec ⟨2, ![2, 1600000]⟩ 32) (w1 : Arr2 128 128) (b1 : (⟨1, ![128]⟩ : Shape).Idx → EReal) :
    finish (dis2K ei) (aggK ei (scaled x w1 (dis2K ei))) (scaled x w1 (dis2K ei)) (rowK b1)
      = val_main_v47 (F := Ideal) x ei w1 b1 := by
  have hmm : mm x w1 = val_main_v11 (F := Ideal) x w1 :=
    (dot_eq _ rfl x w1).symm
  have hb : rowB 100000 (rowK b1) = val_main_v46 (F := Ideal) b1 :=
    bias_eq b1 _ Cert.ReferenceIdeal.Gen.bcast_S128_S1x128_1 Cert.ReferenceIdeal.Gen.bcast_S1x128_S100000x128_0_1
  have hl := layer_law (N := 100000) (C := 128) (E := 1600000) hN
    Cert.ReferenceIdeal.Gen.scatter_S100000x128_S1600000x1_S1600000x128_1_0_0_1_wf
    Cert.ReferenceIdeal.Gen.gather_S100000x128_S1600000x1_S1600000x128_1_0_n_n_0_1_1128_wf
    Cert.ReferenceIdeal.Gen.gather_S100000_S1600000x1_S1600000_n_0_n_n_0_1_1_wf
    (val_main_v11 (F := Ideal) x w1) (val_main_v37 (F := Ideal)) (val_main_v46 (F := Ideal) b1) (val_main_v10 (F := Ideal) ei) (dis2K ei)
    (col_weight ei) (weight_ok ei) (fun i => zero_nc (val_main_cst_7 (F := Ideal)) rfl i)
    (val_main_v17 (F := Ideal) ei) (val_main_v38 (F := Ideal) ei) (val_main_v24 (F := Ideal) ei) (land_1 ei)
    Cert.ReferenceIdeal.Gen.bcast_S1600000_S1600000x1_0 Cert.ReferenceIdeal.Gen.bcast_S1600000x1_S1600000x128_0_1
    Cert.ReferenceIdeal.Gen.bcast_S100000_S100000x1_0 Cert.ReferenceIdeal.Gen.bcast_S100000x1_S100000x128_0_1
  unfold finish scaled
  rw [hmm, hb]
  exact hl

/-- On an edge that lands on node v, the reference's wrapped and clamped target index (layer 2) is v. -/
theorem land_2 (ei : IVec ⟨2, ![2, 1600000]⟩ 32) (e : Fin 1600000) (v : Fin 100000)
    (h : (val_main_v76 (F := Ideal) ei (ix2 e (0 : Fin 1))).toInt = (v.val : Int)) :
    GatherRows.clampRow 100000 hN (val_main_v62 (F := Ideal) ei (ix2 e (0 : Fin 1))) = v := by
  have eDI : val_main_v76 (F := Ideal) ei (ix2 e (0 : Fin 1)) = val_main_v3 (F := Ideal) ei (ix1 e) :=
    col_idx Cert.ReferenceIdeal.Gen.bcast_S1600000_S1600000x1_0 (val_main_v3 (F := Ideal) ei) e
  have eDW : val_main_v62 (F := Ideal) ei (ix2 e (0 : Fin 1)) = val_main_v61 (F := Ideal) ei (ix1 e) :=
    col_idx Cert.ReferenceIdeal.Gen.bcast_S1600000_S1600000x1_0 (val_main_v61 (F := Ideal) ei) e
  have e0 : val_main_v57 (F := Ideal) (ix1 e) = 0#32 := splat_idx Cert.ReferenceIdeal.Gen.bcast_S_S1600000 _ _
  rw [eDI] at h
  rw [eDW]
  show GatherRows.clampRow 100000 hN (Scalar.select
      (IntOp.cmpi .slt (val_main_v3 (F := Ideal) ei (ix1 e)) (val_main_v57 (F := Ideal) (ix1 e)))
      (IntOp.addi (val_main_v3 (F := Ideal) ei (ix1 e)) (val_main_v59 (F := Ideal) (ix1 e)))
      (val_main_v3 (F := Ideal) ei (ix1 e))) = v
  rw [e0]
  exact wrap_clamp hN _ _ v h

/-- Layer 2: the kernel's arrangement, from the layer's input X, is the reference's stage. -/
theorem layer_2 (x : Arr2 100000 128) (ei : IVec ⟨2, ![2, 1600000]⟩ 32) (w1 : Arr2 128 128) (b1 : (⟨1, ![128]⟩ : Shape).Idx → EReal) (w2 : Arr2 128 128) (b2 : (⟨1, ![128]⟩ : Shape).Idx → EReal) :
    finish (dis2K ei) (aggK ei (scaled (val_main_v48 (F := Ideal) x ei w1 b1) w2 (dis2K ei))) (scaled (val_main_v48 (F := Ideal) x ei w1 b1) w2 (dis2K ei)) (rowK b2)
      = val_main_v85 (F := Ideal) x ei w1 b1 w2 b2 := by
  have hmm : mm (val_main_v48 (F := Ideal) x ei w1 b1) w2 = val_main_v49 (F := Ideal) x ei w1 b1 w2 :=
    (dot_eq _ rfl (val_main_v48 (F := Ideal) x ei w1 b1) w2).symm
  have hb : rowB 100000 (rowK b2) = val_main_v84 (F := Ideal) b2 :=
    bias_eq b2 _ Cert.ReferenceIdeal.Gen.bcast_S128_S1x128_1 Cert.ReferenceIdeal.Gen.bcast_S1x128_S100000x128_0_1
  have hl := layer_law (N := 100000) (C := 128) (E := 1600000) hN
    Cert.ReferenceIdeal.Gen.scatter_S100000x128_S1600000x1_S1600000x128_1_0_0_1_wf
    Cert.ReferenceIdeal.Gen.gather_S100000x128_S1600000x1_S1600000x128_1_0_n_n_0_1_1128_wf
    Cert.ReferenceIdeal.Gen.gather_S100000_S1600000x1_S1600000_n_0_n_n_0_1_1_wf
    (val_main_v49 (F := Ideal) x ei w1 b1 w2) (val_main_v75 (F := Ideal)) (val_main_v84 (F := Ideal) b2) (val_main_v10 (F := Ideal) ei) (dis2K ei)
    (col_weight ei) (weight_ok ei) (fun i => zero_nc (val_main_cst_14 (F := Ideal)) rfl i)
    (val_main_v55 (F := Ideal) ei) (val_main_v76 (F := Ideal) ei) (val_main_v62 (F := Ideal) ei) (land_2 ei)
    Cert.ReferenceIdeal.Gen.bcast_S1600000_S1600000x1_0 Cert.ReferenceIdeal.Gen.bcast_S1600000x1_S1600000x128_0_1
    Cert.ReferenceIdeal.Gen.bcast_S100000_S100000x1_0 Cert.ReferenceIdeal.Gen.bcast_S100000x1_S100000x128_0_1
  unfold finish scaled
  rw [hmm, hb]
  exact hl

/-- The first result. -/
theorem result0 (x : Arr2 100000 128) (ei : IVec ⟨2, ![2, 1600000]⟩ 32) (w1 : Arr2 128 128) (b1 : (⟨1, ![128]⟩ : Shape).Idx → EReal)
    (w2 : Arr2 128 128) (b2 : (⟨1, ![128]⟩ : Shape).Idx → EReal) :
    hid x ei w1 b1 w2 b2 = val_main_v85 (F := Ideal) x ei w1 b1 w2 b2 := by
  have h1 : relu (finish (dis2K ei) (aggK ei (xws1 x ei w1)) (xws1 x ei w1) (rowK b1)) = val_main_v48 (F := Ideal) x ei w1 b1 := by
    unfold xws1
    rw [layer_1 x ei w1 b1]
    rfl
  unfold hid xws2
  rw [h1]
  exact layer_2 x ei w1 b1 w2 b2

/-- A linear head with a maximum with zero, in the two spellings. -/
theorem head_eq (H : Arr2 100000 128) (w : Arr2 128 128) (b : (⟨1, ![128]⟩ : Shape).Idx → EReal) :
    head H w (rowK b)
      = maximumf (F := Ideal) (φ := .f32)
          (addf (F := Ideal) (φ := .f32)
            (Host.dotGeneral (F := Ideal) (φ₁ := .f32) (φ₂ := .f32) Cert.ReferenceIdeal.dot_S100000x128_S128x128_S100000x128_1_0_0_1_n_n none H w)
            (broadcastInDim ⟨2, ![100000, 128]⟩ ![0, 1] Cert.ReferenceIdeal.Gen.bcast_S1x128_S100000x128_0_1
              (broadcastInDim ⟨2, ![1, 128]⟩ ![1] Cert.ReferenceIdeal.Gen.bcast_S128_S1x128_1 b)))
          (val_main_call1_v0 (F := Ideal)) := by
  have hmm : mm H w = Host.dotGeneral (F := Ideal) (φ₁ := .f32) (φ₂ := .f32) Cert.ReferenceIdeal.dot_S100000x128_S128x128_S100000x128_1_0_0_1_n_n none H w :=
    (dot_eq _ rfl H w).symm
  have hb : rowB 100000 (rowK b) = broadcastInDim ⟨2, ![100000, 128]⟩ ![0, 1] Cert.ReferenceIdeal.Gen.bcast_S1x128_S100000x128_0_1
      (broadcastInDim ⟨2, ![1, 128]⟩ ![1] Cert.ReferenceIdeal.Gen.bcast_S128_S1x128_1 b) :=
    bias_eq b _ Cert.ReferenceIdeal.Gen.bcast_S128_S1x128_1 Cert.ReferenceIdeal.Gen.bcast_S1x128_S100000x128_0_1
  unfold head
  rw [hmm, hb]
  rfl

/-- The second result. -/
theorem result1 (x : Arr2 100000 128) (ei : IVec ⟨2, ![2, 1600000]⟩ 32) (w1 : Arr2 128 128) (b1 : (⟨1, ![128]⟩ : Shape).Idx → EReal)
    (w2 : Arr2 128 128) (b2 : (⟨1, ![128]⟩ : Shape).Idx → EReal) (wv : Arr2 128 128) (bv : (⟨1, ![128]⟩ : Shape).Idx → EReal) :
    head (hid x ei w1 b1 w2 b2) wv (rowK bv) = val_main_v90 (F := Ideal) x ei w1 b1 w2 b2 wv bv := by
  rw [head_eq, result0]
  rfl

/-- The third result. -/
theorem result2 (x : Arr2 100000 128) (ei : IVec ⟨2, ![2, 1600000]⟩ 32) (w1 : Arr2 128 128) (b1 : (⟨1, ![128]⟩ : Shape).Idx → EReal)
    (w2 : Arr2 128 128) (b2 : (⟨1, ![128]⟩ : Shape).Idx → EReal) (wt : Arr2 128 128) (bt : (⟨1, ![128]⟩ : Shape).Idx → EReal) :
    head (hid x ei w1 b1 w2 b2) wt (rowK bt) = val_main_v95 (F := Ideal) x ei w1 b1 w2 b2 wt bt := by
  rw [head_eq, result0]
  rfl

end Cert.Bridge

end
-- ==== Proof.lean ====
/-
  A two-layer graph convolution with two linear heads: a kernel program of three row-tiled regions against a plain
  reference, equal on the extended reals.

  With d v = (deg v + 1)^(-1/2) the weight of node v (deg v the number of edges landing on v), a layer of the
  reference sends node features X to
      Σ over edges e into v of (X W) (src e) · (d (src e) · d (dst e))  +  (d v · d v) · (X W) v  +  b.
  The kernel program scales row v of X W by d v once, sums the gathered rows at each node, and finishes with
  d v · (sum + own scaled row) + b; the factor d v moves across the sum because it is a non-negative real number,
  whatever the inputs are, so the precondition is never opened. Layer one is followed by a maximum with zero, layer
  two is the first result, and each of the other two results is a product with a weight matrix, a bias and a maximum
  with zero; changes of float format are the identity at the exact values.

  The three frames: the two kernel programs' are the frame run of their three regions; the reference's is its run
  with the results dropped. The idealized kernel is the kernel's own text read at the exact values, so nothing is
  owed for it. For the value claim, the kernel program's run leaves every buffer at the last boundary's contents
  (KernelRun), those contents at the result buffers are whole-array functions of the launch arrays (Region0–2 for
  what a region writes, Through for the walk from launch to results), and those functions are the reference's
  stages (LibGcnDense and LibGcnLaw for the mathematics, Bridge for the reference's spelling).
-/
import proofs.«164251_j86242943303861_2_alg».proof.Defs
import proofs.«164251_j86242943303861_2_alg».proof.Proof.Gen.Kernel
import proofs.«164251_j86242943303861_2_alg».proof.Proof.Gen.Kernel.Skeleton
import proofs.«164251_j86242943303861_2_alg».proof.Proof.Gen.Kernel.Launch
import proofs.«164251_j86242943303861_2_alg».proof.Proof.Gen.Kernel.Points
import proofs.«164251_j86242943303861_2_alg».proof.Proof.Gen.Kernel.Frame
import proofs.«164251_j86242943303861_2_alg».proof.Proof.Gen.KernelIdeal
import proofs.«164251_j86242943303861_2_alg».proof.Proof.Gen.KernelIdeal.Skeleton
import proofs.«164251_j86242943303861_2_alg».proof.Proof.Gen.KernelIdeal.Launch
import proofs.«164251_j86242943303861_2_alg».proof.Proof.Gen.KernelIdeal.Points
import proofs.«164251_j86242943303861_2_alg».proof.Proof.Gen.KernelIdeal.Frame
import proofs.«164251_j86242943303861_2_alg».proof.Proof.Gen.ReferenceIdeal
import proofs.«164251_j86242943303861_2_alg».proof.Proof.Gen.Pre_finite_inputs
import proofs.«164251_j86242943303861_2_alg».proof.Proof.Gen.ReferenceIdeal.Run
import proofs.«164251_j86242943303861_2_alg».proof.Proof.Gen.ReferenceIdeal.Read
import proofs.«164251_j86242943303861_2_alg».proof.Proof.KernelRun
import proofs.«164251_j86242943303861_2_alg».proof.Proof.Through
import proofs.«164251_j86242943303861_2_alg».proof.Proof.Bridge
import Idealize.ShloMosaic.Adequacy
import Idealize.ShloMosaic.Init

set_option maxRecDepth 16384

noncomputable section

namespace Cert.Proof

open Idealize.ShloMosaic Idealize.SL.Sem

/-- The kernel program runs and leaves its arguments alone: the frame run of its three regions. -/
theorem frame_kernel : Cert.frame_Kernel (hKernel := Cert.Kernel.Gen.facts) (hPre_finite_inputs := Cert.Pre_finite_inputs.Gen.facts) :=
  fun m ρ _ => Cert.Kernel.Gen.frame m ρ

/-- The same at the exact values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The idealized kernel is the kernel's own text read at the exact values: nothing was rewritten. -/
theorem preserves : Cert.preserves_Kernel_KernelIdeal := trivial

/-- From memories agreeing on the arguments both programs run, and the kernel program's three results are the
    reference's: its run ends at the last boundary's contents, which at the result buffers are the reference's
    stages of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Value.res_main_v85 m' c, fun c => Cert.ReferenceIdeal.Value.res_main_v90 m' c,
    fun c => Cert.ReferenceIdeal.Value.res_main_v95 m' c, ?_, Cert.ReferenceIdeal.Value.run (F := Ideal) m' ρ'⟩
  refine (θ_run Cert.KernelIdeal.defs _ _).mono (fun r h c => ?_) (Cert.KernelIdeal.Whole.run_all (F := Ideal) m ρ)
  obtain ⟨a0, a1, a2, a3, a4, a5, a6, a7, a8, a9⟩ := hagree c
  refine ⟨?_, ?_, ?_,
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c)⟩
  · show _ = Cert.ReferenceIdeal.Value.res_main_v85 m' c
    rw [Cert.ReferenceIdeal.Read.val_main_v85_eq, a0, a1, a2, a3, a4, a5]
    exact (h c _ (Cert.KernelIdeal.Gen.mem_uc Cert.KernelIdeal.main_v38_0 (by decide))).trans
      ((Cert.KernelIdeal.Through.res0 m ρ c).trans (Cert.Bridge.result0 _ _ _ _ _ _))
  · show _ = Cert.ReferenceIdeal.Value.res_main_v90 m' c
    rw [Cert.ReferenceIdeal.Read.val_main_v90_eq, a0, a1, a2, a3, a4, a5, a6, a7]
    exact (h c _ (Cert.KernelIdeal.Gen.mem_uc Cert.KernelIdeal.main_v38_1 (by decide))).trans
      ((Cert.KernelIdeal.Through.res1 m ρ c).trans (Cert.Bridge.result1 _ _ _ _ _ _ _ _))
  · show _ = Cert.ReferenceIdeal.Value.res_main_v95 m' c
    rw [Cert.ReferenceIdeal.Read.val_main_v95_eq, a0, a1, a2, a3, a4, a5, a8, a9]
    exact (h c _ (Cert.KernelIdeal.Gen.mem_uc Cert.KernelIdeal.main_v38_2 (by decide))).trans
      ((Cert.KernelIdeal.Through.res2 m ρ c).trans (Cert.Bridge.result2 _ _ _ _ _ _ _ _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
